-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S512x513 : Shape := ⟨2, ![512, 513]⟩
abbrev S512x512 : Shape := ⟨2, ![512, 512]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S512x513 : S_.BroadcastsInDim S512x513 (![] : Fin 0 → Fin S512x513.rank)
  reducesTo_S512x513_S_d0_1 : S512x513.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x513 .f32) (main_arg12 : FVec F S512x513 .f32) (main_arg13 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x513 .f32 := Host.absf main_arg11
  let main_cst_20 : FVec F S_ .f32 := constant S_ .f32 0x7F800000#32
  let main_v55 : FVec F S512x513 .f32 := broadcastInDim S512x513 ![] bcast_S_S512x513 main_cst_20
  let main_v56 : IVec S512x513 1 := cmpf .olt main_v54 main_v55
  let main_c_21 : IVec S_ 1 := constantI S_ 1 1#1
  let main_v57 : IVec S_ 1 := (fun x v => Host.reduce IntOp.andi x v reducesTo_S512x513_S_d0_1 h_S_) main_v56 main_c_21
  let main_v58 : IVec S_ 1 := andi main_v53 main_v57
  let main_v59 : FVec F S512x513 .f32 := Host.absf main_arg12
  let main_cst_22 : FVec F S_ .f32 := constant S_ .f32 0x7F800000#32
  let main_v60 : FVec F S512x513 .f32 := broadcastInDim S512x513 ![] bcast_S_S512x513 main_cst_22
  let main_v61 : IVec S512x513 1 := cmpf .olt main_v59 main_v60
  let main_c_23 : IVec S_ 1 := constantI S_ 1 1#1
  let main_v62 : IVec S_ 1 := (fun x v => Host.reduce IntOp.andi x v reducesTo_S512x513_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_v63 main_v67

def fn_part2 {F : FTy → Type} [FloatOps F] (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) (main_v33 : IVec S_ 1) : IVec S_ 1 :=
  let main_v34 : FVec F S512x513 .f32 := Host.absf main_arg7
  let main_cst_12 : FVec F S_ .f32 := constant S_ .f32 0x7F800000#32
  let main_v35 : FVec F S512x513 .f32 := broadcastInDim S512x513 ![] bcast_S_S512x513 main_cst_12
  let main_v36 : IVec S512x513 1 := cmpf .olt main_v34 main_v35
  let main_c_13 : IVec S_ 1 := constantI S_ 1 1#1
  let main_v37 : IVec S_ 1 := (fun x v => Host.reduce IntOp.andi x v reducesTo_S512x513_S_d0_1 h_S_) main_v36 main_c_13
  let main_v38 : IVec S_ 1 := andi main_v33 main_v37
  let main_v39 : FVec F S512x513 .f32 := Host.absf main_arg8
  let main_cst_14 : FVec F S_ .f32 := constant S_ .f32 0x7F800000#32
  let main_v40 : FVec F S512x513 .f32 := broadcastInDim S512x513 ![] bcast_S_S512x513 main_cst_14
  let main_v41 : IVec S512x513 1 := cmpf .olt main_v39 main_v40
  let main_c_15 : IVec S_ 1 := constantI S_ 1 1#1
  let main_v42 : IVec S_ 1 := (fun x v => Host.reduce IntOp.andi x v reducesTo_S512x513_S_d0_1 h_S_) main_v41 main_c_15
  let main_v43 : IVec S_ 1 := andi main_v38 main_v42
  let main_v44 : FVec F S512x513 .f32 := Host.absf main_arg9
  let main_cst_16 : FVec F S_ .f32 := constant S_ .f32 0x7F800000#32
  let main_v45 : FVec F S512x513 .f32 := broadcastInDim S512x513 ![] bcast_S_S512x513 main_cst_16
  let main_v46 : IVec S512x513 1 := cmpf .olt main_v44 main_v45
  let main_c_17 : IVec S_ 1 := constantI S_ 1 1#1
  let main_v47 : IVec S_ 1 := (fun x v => Host.reduce IntOp.andi x v reducesTo_S512x513_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x513 .f32) (main_arg5 : FVec F S512x512 .f32) (main_arg6 : FVec F S512x513 .f32) (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) (main_v13 : IVec S_ 1) (main_v16 : IVec S512x513 1) : IVec S_ 1 :=
  let main_c_5 : IVec S_ 1 := constantI S_ 1 1#1
  let main_v17 : IVec S_ 1 := (fun x v => Host.reduce IntOp.andi x v reducesTo_S512x513_S_d0_1 h_S_) main_v16 main_c_5
  let main_v18 : IVec S_ 1 := andi main_v13 main_v17
  let main_v19 : FVec F S512x513 .f32 := Host.absf main_arg4
  let main_cst_6 : FVec F S_ .f32 := constant S_ .f32 0x7F800000#32
  let main_v20 : FVec F S512x513 .f32 := broadcastInDim S512x513 ![] bcast_S_S512x513 main_cst_6
  let main_v21 : IVec S512x513 1 := cmpf .olt main_v19 main_v20
  let main_c_7 : IVec S_ 1 := constantI S_ 1 1#1
  let main_v22 : IVec S_ 1 := (fun x v => Host.reduce IntOp.andi x v reducesTo_S512x513_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x513 .f32 := Host.absf main_arg6
  let main_cst_10 : FVec F S_ .f32 := constant S_ .f32 0x7F800000#32
  let main_v30 : FVec F S512x513 .f32 := broadcastInDim S512x513 ![] bcast_S_S512x513 main_cst_10
  let main_v31 : IVec S512x513 1 := cmpf .olt main_v29 main_v30
  let main_c_11 : IVec S_ 1 := constantI S_ 1 1#1
  let main_v32 : IVec S_ 1 := (fun x v => Host.reduce IntOp.andi x v reducesTo_S512x513_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S512x32768 .f32) (main_arg1 : FVec F S512x32768 .f32) (main_arg2 : FVec F S512x32768 .f32) (main_arg3 : FVec F S512x513 .f32) (main_arg4 : FVec F S512x513 .f32) (main_arg5 : FVec F S512x512 .f32) (main_arg6 : FVec F S512x513 .f32) (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S512x32768 .f32 := Host.absf main_arg1
  let main_cst_0 : FVec F S_ .f32 := constant S_ .f32 0x7F800000#32
  let main_v5 : FVec F S512x32768 .f32 := broadcastInDim S512x32768 ![] bcast_S_S512x32768 main_cst_0
  let main_v6 : IVec S512x32768 1 := cmpf .olt main_v4 main_v5
  let main_c_1 : IVec S_ 1 := constantI S_ 1 1#1
  let main_v7 : IVec S_ 1 := (fun x v => Host.reduce IntOp.andi x v reducesTo_S512x32768_S_d0_1 h_S_) main_v6 main_c_1
  let main_v8 : IVec S_ 1 := andi main_v3 main_v7
  let main_v9 : FVec F S512x32768 .f32 := Host.absf main_arg2
  let main_cst_2 : FVec F S_ .f32 := constant S_ .f32 0x7F800000#32
  let main_v10 : FVec F S512x32768 .f32 := broadcastInDim S512x32768 ![] bcast_S_S512x32768 main_cst_2
  let main_v11 : IVec S512x32768 1 := cmpf .olt main_v9 main_v10
  let main_c_3 : IVec S_ 1 := constantI S_ 1 1#1
  let main_v12 : IVec S_ 1 := (fun x v => Host.reduce IntOp.andi x v reducesTo_S512x32768_S_d0_1 h_S_) main_v11 main_c_3
  let main_v13 : IVec S_ 1 := andi main_v8 main_v12
  let main_v14 : FVec F S512x513 .f32 := Host.absf main_arg3
  let main_cst_4 : FVec F S_ .f32 := constant S_ .f32 0x7F800000#32
  let main_v15 : FVec F S512x513 .f32 := broadcastInDim S512x513 ![] bcast_S_S512x513 main_cst_4
  let main_v16 : IVec S512x513 1 := cmpf .olt main_v14 main_v15
  fn_part1 (F := F) main_arg4 main_arg5 main_arg6 main_arg7 main_arg8 main_arg9 main_arg10 main_arg11 main_arg12 main_arg13 main_v13 main_v16
-- ==== Kernel.lean ====
abbrev S512x32768 : Shape := ⟨2, ![512, 32768]⟩
abbrev S512x513 : Shape := ⟨2, ![512, 513]⟩
abbrev S512x512 : Shape := ⟨2, ![512, 512]⟩
abbrev S512x1 : Shape := ⟨2, ![512, 1]⟩
abbrev S2048x512 : Shape := ⟨2, ![2048, 512]⟩
abbrev S1536x512 : Shape := ⟨2, ![1536, 512]⟩

abbrev nBuf : Space → Nat
  | .hbm => 42
  | .vmem => 17
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32768, .f32⟩
  | .hbm, ⟨3, _⟩ => ⟨S512x513, .f32⟩
  | .hbm, ⟨4, _⟩ => ⟨S512x513, .f32⟩
  | .hbm, ⟨5, _⟩ => ⟨S512x512, .f32⟩
  | .hbm, ⟨6, _⟩ => ⟨S512x513, .f32⟩
  | .hbm, ⟨7, _⟩ => ⟨S512x513, .f32⟩
  | .hbm, ⟨8, _⟩ => ⟨S512x513, .f32⟩
  | .hbm, ⟨9, _⟩ => ⟨S512x513, .f32⟩
  | .hbm, ⟨10, _⟩ => ⟨S512x512, .f32⟩
  | .hbm, ⟨11, _⟩ => ⟨S512x513, .f32⟩
  | .hbm, ⟨12, _⟩ => ⟨S512x513, .f32⟩
  | .hbm, ⟨13, _⟩ => ⟨S512x512, .f32⟩
  | .hbm, ⟨14, _⟩ => ⟨S512x512, .f32⟩
  | .hbm, ⟨15, _⟩ => ⟨S512x1, .f32⟩
  | .hbm, ⟨16, _⟩ => ⟨S512x512, .f32⟩
  | .hbm, ⟨17, _⟩ => ⟨S512x1, .f32⟩
  | .hbm, ⟨18, _⟩ => ⟨S512x1, .f32⟩
  | .hbm, ⟨19, _⟩ => ⟨S512x512, .f32⟩
  | .hbm, ⟨20, _⟩ => ⟨S512x1, .f32⟩
  | .hbm, ⟨21, _⟩ => ⟨S512x512, .f32⟩
  | .hbm, ⟨22, _⟩ => ⟨S512x1, .f32⟩
  | .hbm, ⟨23, _⟩ => ⟨S512x1, .f32⟩
  | .hbm, ⟨24, _⟩ => ⟨S512x512, .f32⟩
  | .hbm, ⟨25, _⟩ => ⟨S512x1, .f32⟩
  | .hbm, ⟨26, _⟩ => ⟨S512x512, .f32⟩
  | .hbm, ⟨27, _⟩ => ⟨S512x1, .f32⟩
  | .hbm, ⟨28, _⟩ => ⟨S512x1, .f32⟩
  | .hbm, ⟨29, _⟩ => ⟨S512x512, .f32⟩
  | .hbm, ⟨30, _⟩ => ⟨S512x1, .f32⟩
  | .hbm, ⟨31, _⟩ => ⟨S512x512, .f32⟩
  | .hbm, ⟨32, _⟩ => ⟨S512x1, .f32⟩
  | .hbm, ⟨33, _⟩ => ⟨S512x1, .f32⟩
  | .hbm, ⟨34, _⟩ => ⟨S2048x512, .f32⟩
  | .hbm, ⟨35, _⟩ => ⟨S2048x512, .bf16⟩
  | .hbm, ⟨36, _⟩ => ⟨S2048x512, .f32⟩
  | .hbm, ⟨37, _⟩ => ⟨S2048x512, .bf16⟩
  | .hbm, ⟨38, _⟩ => ⟨S1536x512, .f32⟩
  | .hbm, ⟨39, _⟩ => ⟨S1536x512, .bf16⟩
  | .hbm, ⟨40, _⟩ => ⟨S512x32768, .f32⟩
  | .hbm, ⟨41, _⟩ => ⟨S512x32768, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | .local _ .vmem, ⟨7, _⟩ => ⟨S2048x512, .bf16⟩
  | .local _ .vmem, ⟨8, _⟩ => ⟨S1536x512, .bf16⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S512x513_S512x512_0_0 : S512x513.Slices ![0, 0] S512x512
  slices_S512x513_S512x1_0_512 : S512x513.Slices ![0, 512] S512x1
  concatenates_S512x512_S512x512_S512x512_S512x512_S2048x512_d0 : Shape.Concatenates [S512x512, S512x512, S512x512, S512x512] S2048x512 0
  bitsLt_bf16_f32 : FTy.bits .bf16 < FTy.bits .f32
  concatenates_S512x512_S512x512_S512x512_S1536x512_d0 : Shape.Concatenates [S512x512, S512x512, S512x512] S1536x512 0
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  slices_S2048x512_o0_0_S512x512 : S2048x512.Slices ![0, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  slices_S2048x512_o512_0_S512x512 : S2048x512.Slices ![512, 0] S512x512
  slices_S1536x512_o0_0_S512x512 : S1536x512.Slices ![0, 0] S512x512
  slices_S2048x512_o1024_0_S512x512 : S2048x512.Slices ![1024, 0] S512x512
  slices_S1536x512_o512_0_S512x512 : S1536x512.Slices ![512, 0] S512x512
  slices_S2048x512_o1536_0_S512x512 : S2048x512.Slices ![1536, 0] S512x512
  slices_S1536x512_o1024_0_S512x512 : S1536x512.Slices ![1024, 0] S512x512
  dot_S2048x512_S512x512_S2048x512_1_0_0_1_n_n_wf : DotDims.WF S2048x512 S512x512 S2048x512 [1] [0] [0] [1] [] []
  dot_S1536x512_S512x512_S1536x512_1_0_0_1_n_n_wf : DotDims.WF S1536x512 S512x512 S1536x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x32768.size a
  hwx0_0 : ∀ i : grid0.Coords, EltTy.bits .f32 = 32 ∨ (Rect.block (s := S512x32768) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x32768.size a
  hwx0_1 : ∀ i : grid0.Coords, EltTy.bits .f32 = 32 ∨ (Rect.block (s := S512x32768) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x32768.size a
  hwx0_2 : ∀ i : grid0.Coords, EltTy.bits .f32 = 32 ∨ (Rect.block (s := S512x32768) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .bf16 = 32 ∨ (Rect.block (s := S1536x512) S1536x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x32768.size a
  hwx0_10 : ∀ i : grid0.Coords, EltTy.bits .f32 = 32 ∨ (Rect.block (s := S512x32768) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x32768.size a
  hwx0_11 : ∀ i : grid0.Coords, EltTy.bits .f32 = 32 ∨ (Rect.block (s := S512x32768) S512x512.size (cc0_transform_11 i) (hinb0_11 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S512x32768 : Shape := ⟨2, ![512, 32768]⟩
abbrev S512x513 : Shape := ⟨2, ![512, 513]⟩
abbrev S512x512 : Shape := ⟨2, ![512, 512]⟩
abbrev S_ : Shape := ⟨0, ![]⟩
abbrev S1x32768 : Shape := ⟨2, ![1, 32768]⟩
abbrev S513x32768 : Shape := ⟨2, ![513, 32768]⟩

abbrev nBuf : Space → Nat
  | .hbm => 65
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32768, .f32⟩
  | .hbm, ⟨3, _⟩ => ⟨S512x513, .f32⟩
  | .hbm, ⟨4, _⟩ => ⟨S512x513, .f32⟩
  | .hbm, ⟨5, _⟩ => ⟨S512x512, .f32⟩
  | .hbm, ⟨6, _⟩ => ⟨S512x513, .f32⟩
  | .hbm, ⟨7, _⟩ => ⟨S512x513, .f32⟩
  | .hbm, ⟨8, _⟩ => ⟨S512x513, .f32⟩
  | .hbm, ⟨9, _⟩ => ⟨S512x513, .f32⟩
  | .hbm, ⟨10, _⟩ => ⟨S512x512, .f32⟩
  | .hbm, ⟨11, _⟩ => ⟨S512x513, .f32⟩
  | .hbm, ⟨12, _⟩ => ⟨S512x513, .f32⟩
  | .hbm, ⟨13, _⟩ => ⟨S512x512, .f32⟩
  | .hbm, ⟨14, _⟩ => ⟨S_, .f32⟩
  | .hbm, ⟨15, _⟩ => ⟨S1x32768, .f32⟩
  | .hbm, ⟨16, _⟩ => ⟨S513x32768, .f32⟩
  | .hbm, ⟨17, _⟩ => ⟨S513x32768, .f32⟩
  | .hbm, ⟨18, _⟩ => ⟨S512x32768, .f32⟩
  | .hbm, ⟨19, _⟩ => ⟨S512x32768, .f32⟩
  | .hbm, ⟨20, _⟩ => ⟨S512x32768, .f32⟩
  | .hbm, ⟨21, _⟩ => ⟨S512x32768, .f32⟩
  | .hbm, ⟨22, _⟩ => ⟨S512x32768, .f32⟩
  | .hbm, ⟨23, _⟩ => ⟨S512x32768, .f32⟩
  | .hbm, ⟨24, _⟩ => ⟨S512x32768, .f32⟩
  | .hbm, ⟨25, _⟩ => ⟨S512x32768, .f32⟩
  | .hbm, ⟨26, _⟩ => ⟨S512x32768, .f32⟩
  | .hbm, ⟨27, _⟩ => ⟨S512x32768, .f32⟩
  | .hbm, ⟨28, _⟩ => ⟨S512x32768, .f32⟩
  | .hbm, ⟨29, _⟩ => ⟨S_, .f32⟩
  | .hbm, ⟨30, _⟩ => ⟨S512x32768, .f32⟩
  | .hbm, ⟨31, _⟩ => ⟨S512x32768, .f32⟩
  | .hbm, ⟨32, _⟩ => ⟨S_, .f32⟩
  | .hbm, ⟨33, _⟩ => ⟨S512x32768, .f32⟩
  | .hbm, ⟨34, _⟩ => ⟨S512x32768, .f32⟩
  | .hbm, ⟨35, _⟩ => ⟨S512x32768, .f32⟩
  | .hbm, ⟨36, _⟩ => ⟨S512x32768, .f32⟩
  | .hbm, ⟨37, _⟩ => ⟨S512x32768, .f32⟩
  | .hbm, ⟨38, _⟩ => ⟨S512x32768, .f32⟩
  | .hbm, ⟨39, _⟩ => ⟨S512x32768, .f32⟩
  | .hbm, ⟨40, _⟩ => ⟨S512x32768, .f32⟩
  | .hbm, ⟨41, _⟩ => ⟨S512x32768, .f32⟩
  | .hbm, ⟨42, _⟩ => ⟨S_, .f32⟩
  | .hbm, ⟨43, _⟩ => ⟨S512x32768, .f32⟩
  | .hbm, ⟨44, _⟩ => ⟨S512x32768, .f32⟩
  | .hbm, ⟨45, _⟩ => ⟨S_, .f32⟩
  | .hbm, ⟨46, _⟩ => ⟨S512x32768, .f32⟩
  | .hbm, ⟨47, _⟩ => ⟨S512x32768, .f32⟩
  | .hbm, ⟨48, _⟩ => ⟨S512x32768, .f32⟩
  | .hbm, ⟨49, _⟩ => ⟨S512x32768, .f32⟩
  | .hbm, ⟨50, _⟩ => ⟨S512x32768, .f32⟩
  | .hbm, ⟨51, _⟩ => ⟨S512x32768, .f32⟩
  | .hbm, ⟨52, _⟩ => ⟨S512x32768, .f32⟩
  | .hbm, ⟨53, _⟩ => ⟨S512x32768, .f32⟩
  | .hbm, ⟨54, _⟩ => ⟨S512x32768, .f32⟩
  | .hbm, ⟨55, _⟩ => ⟨S_, .f32⟩
  | .hbm, ⟨56, _⟩ => ⟨S512x32768, .f32⟩
  | .hbm, ⟨57, _⟩ => ⟨S512x32768, .f32⟩
  | .hbm, ⟨58, _⟩ => ⟨S_, .f32⟩
  | .hbm, ⟨59, _⟩ => ⟨S512x32768, .f32⟩
  | .hbm, ⟨60, _⟩ => ⟨S512x32768, .f32⟩
  | .hbm, ⟨61, _⟩ => ⟨S512x32768, .f32⟩
  | .hbm, ⟨62, _⟩ => ⟨S512x32768, .f32⟩
  | .hbm, ⟨63, _⟩ => ⟨S512x32768, .f32⟩
  | .hbm, ⟨64, _⟩ => ⟨S512x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S1x32768 : S_.BroadcastsInDim S1x32768 (![] : Fin 0 → Fin S1x32768.rank)
  concatenates_S512x32768_S1x32768_S513x32768_d0 : Shape.Concatenates [S512x32768, S1x32768] S513x32768 0
  bcast_S_S512x32768 : S_.BroadcastsInDim S512x32768 (![] : Fin 0 → Fin S512x32768.rank)
  dot_S512x513_S513x32768_S512x32768_1_0_0_1_n_n_wf : DotDims.WF S512x513 S513x32768 S512x32768 [1] [0] [0] [1] [] []
  dot_S512x512_S512x32768_S512x32768_1_0_0_1_n_n_wf : DotDims.WF S512x512 S512x32768 S512x32768 [1] [0] [0] [1] [] []

variable [Facts₀]

def dot_S512x513_S513x32768_S512x32768_1_0_0_1_n_n : DotDims S512x513 S513x32768 S512x32768 where
  lhsContracting := [1]
  rhsContracting := [0]
  lhsNonContracting := [0]
  rhsNonContracting := [1]
  lhsBatch := []
  rhsBatch := []
  wf := dot_S512x513_S513x32768_S512x32768_1_0_0_1_n_n_wf
def dot_S512x512_S512x32768_S512x32768_1_0_0_1_n_n : DotDims S512x512 S512x32768 S512x32768 where
  lhsContracting := [1]
  rhsContracting := [0]
  lhsNonContracting := [0]
  rhsNonContracting := [1]
  lhsBatch := []
  rhsBatch := []
  wf := dot_S512x512_S512x32768_S512x32768_1_0_0_1_n_n_wf

class Facts : Prop extends Facts₀ where

variable [Facts]
-- ==== Proof.KernelFrame.lean ====
/-
  The frame of the cell kernel's program, at any float instance: its run terminates without a fault and leaves the
  fourteen argument arrays as they were.

  The program is twenty-six host operations (each weight's first 512 columns and its bias column sliced apart, the two
  bias columns of a gate added, the input-side, recurrent and memory-side weights stacked by rows and narrowed), then one
  region over 64 grid points. Point t handles batch columns 512·t … 512·t + 511: three state windows (input, previous
  output, previous memory) move with t; the three stacked weights and the four bias columns are resident; the two
  result windows (new output, new memory) move with t. The body loads the ten input blocks whole, computes, and stores
  each result block whole.

  What is proved here, in order: the arrays as the region finds them (the host operations applied to the launch
  contents) and that no host operation writes an argument; each input block found in its staging buffer at every
  point; what the body leaves in the two result buffers as a function of the ten input blocks (one covering store
  each); the body's triple; the proof data; the run, whose post names every window's array; and the frame.
-/
import proofs.«118199_j54262616818002_2_alg».proof.Proof.Gen.Kernel.Launch
import proofs.«118199_j54262616818002_2_alg».proof.Proof.Gen.Kernel.Skeleton
import proofs.«118199_j54262616818002_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether or not the point fetches it
    (a resident window's block index never moves), for any proof data over these arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- The three state arrays are inputs of the region, which leaves an input's array as found; the eleven weights are
    staged by no window; and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## What the body leaves in the two result buffers -/

/-- The whole-block rectangles of the four block shapes. -/
abbrev rA : Rect S512x512 := Rect.unit (s := S512x512) ![0, 0] S512x512.size inb_S512x512_S512x512_0_0
abbrev rB : Rect S2048x512 := Rect.unit (s := S2048x512) ![0, 0] S2048x512.size inb_S2048x512_S2048x512_0_0
abbrev rC : Rect S1536x512 := Rect.unit (s := S1536x512) ![0, 0] S1536x512.size inb_S1536x512_S1536x512_0_0
abbrev rD : Rect S512x1 := Rect.unit (s := S512x1) ![0, 0] S512x1.size inb_S512x1_S512x1_0_0

/-- The new-output block, from the ten input blocks. -/
def payOut (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : FVec F S512x512 .f32 :=
  k0_pay2 (View.ld x2 rA) (k0_pay3 (View.ld x0 rA) (View.ld x3 rB)) (k0_pay4 (View.ld x1 rA) (View.ld x4 rB)) (k0_pay5 (View.ld x2 rA) (View.ld x5 rC)) (k0_pay6 (View.ld x0 rA) (View.ld x1 rA) (View.ld x3 rB) (View.ld x4 rB) (View.ld x6 rD)) (k0_pay7 (View.ld x0 rA) (View.ld x1 rA) (View.ld x2 rA) (View.ld x3 rB) (View.ld x4 rB) (View.ld x5 rC) (View.ld x7 rD)) (k0_pay8 (View.ld x0 rA) (View.ld x1 rA) (View.ld x2 rA) (View.ld x3 rB) (View.ld x4 rB) (View.ld x5 rC)) (View.ld x8 rD) (View.ld x9 rD)
/-- The new-memory block, from the ten input blocks. -/
def payMem (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : FVec F S512x512 .f32 :=
  k0_pay1 (View.ld x2 rA) (k0_pay6 (View.ld x0 rA) (View.ld x1 rA) (View.ld x3 rB) (View.ld x4 rB) (View.ld x6 rD)) (k0_pay7 (View.ld x0 rA) (View.ld x1 rA) (View.ld x2 rA) (View.ld x3 rB) (View.ld x4 rB) (View.ld x5 rC) (View.ld x7 rD)) (k0_pay8 (View.ld x0 rA) (View.ld x1 rA) (View.ld x2 rA) (View.ld x3 rB) (View.ld x4 rB) (View.ld x5 rC)) (View.ld x8 rD)

/-- The new-output window's buffer after the body: its one whole-block store. -/
def outO (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : Vec F S512x512 .f32 :=
  View.canon [⟨rA, payOut x0 x1 x2 x3 x4 x5 x6 x7 x8 x9⟩]
/-- The new-memory window's buffer after the body: its one whole-block store. -/
def outM (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : Vec F S512x512 .f32 :=
  View.canon [⟨rA, payMem x0 x1 x2 x3 x4 x5 x6 x7 x8 x9⟩]

/-- A whole-block store covers the buffer. -/
theorem coverA (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 2000000 in
/-- On whole staging buffers, the ten inputs' at contents `x0 … x9` and the two results' at anything, the body runs to
    the continuation with the inputs' as they were and the results' at `outO` and `outM` of the inputs. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1536x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (arg12 : Memref sig .tc .vmem S512x512 .f32) (harg12 : arg12.IsWhole)
    (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outO x0 x1 x2 x3 x4 x5 x6 x7 x8 x9) ∗ owns (c : Thread nD τ) arg12 fullShare (outM x0 x1 x2 x3 x4 x5 x6 x7 x8 x9)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coverA _)
  iexists _; isplitr
  swap; · iexact H11
  ipureintro
  exact View.read_writes_eq_canon _ _ _ (coverA _)

/-! ## The proof data -/

/-- On core `c`: the arrays as the region finds them; after the body at point `t` each input's buffer at its block and
    the two results' at `outO` / `outM` of the input blocks there; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outO (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => outM (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outO (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = outM (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.CellFrame

end
-- ==== Proof.KernelIdealFrame.lean ====
/-
  The frame of the cell kernel's program, at any float instance: its run terminates without a fault and leaves the
  fourteen argument arrays as they were.

  The program is twenty-six host operations (each weight's first 512 columns and its bias column sliced apart, the two
  bias columns of a gate added, the input-side, recurrent and memory-side weights stacked by rows and narrowed), then one
  region over 64 grid points. Point t handles batch columns 512·t … 512·t + 511: three state windows (input, previous
  output, previous memory) move with t; the three stacked weights and the four bias columns are resident; the two
  result windows (new output, new memory) move with t. The body loads the ten input blocks whole, computes, and stores
  each result block whole.

  What is proved here, in order: the arrays as the region finds them (the host operations applied to the launch
  contents) and that no host operation writes an argument; each input block found in its staging buffer at every
  point; what the body leaves in the two result buffers as a function of the ten input blocks (one covering store
  each); the body's triple; the proof data; the run, whose post names every window's array; and the frame.
-/
import proofs.«118199_j54262616818002_2_alg».proof.Proof.Gen.KernelIdeal.Launch
import proofs.«118199_j54262616818002_2_alg».proof.Proof.Gen.KernelIdeal.Skeleton
import proofs.«118199_j54262616818002_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether or not the point fetches it
    (a resident window's block index never moves), for any proof data over these arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

/-- The three state arrays are inputs of the region, which leaves an input's array as found; the eleven weights are
    staged by no window; and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## What the body leaves in the two result buffers -/

/-- The whole-block rectangles of the four block shapes. -/
abbrev rA : Rect S512x512 := Rect.unit (s := S512x512) ![0, 0] S512x512.size inb_S512x512_S512x512_0_0
abbrev rB : Rect S2048x512 := Rect.unit (s := S2048x512) ![0, 0] S2048x512.size inb_S2048x512_S2048x512_0_0
abbrev rC : Rect S1536x512 := Rect.unit (s := S1536x512) ![0, 0] S1536x512.size inb_S1536x512_S1536x512_0_0
abbrev rD : Rect S512x1 := Rect.unit (s := S512x1) ![0, 0] S512x1.size inb_S512x1_S512x1_0_0

/-- The new-output block, from the ten input blocks. -/
def payOut (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : FVec F S512x512 .f32 :=
  k0_pay2 (View.ld x2 rA) (k0_pay3 (View.ld x0 rA) (View.ld x3 rB)) (k0_pay4 (View.ld x1 rA) (View.ld x4 rB)) (k0_pay5 (View.ld x2 rA) (View.ld x5 rC)) (k0_pay6 (View.ld x0 rA) (View.ld x1 rA) (View.ld x3 rB) (View.ld x4 rB) (View.ld x6 rD)) (k0_pay7 (View.ld x0 rA) (View.ld x1 rA) (View.ld x2 rA) (View.ld x3 rB) (View.ld x4 rB) (View.ld x5 rC) (View.ld x7 rD)) (k0_pay8 (View.ld x0 rA) (View.ld x1 rA) (View.ld x2 rA) (View.ld x3 rB) (View.ld x4 rB) (View.ld x5 rC)) (View.ld x8 rD) (View.ld x9 rD)
/-- The new-memory block, from the ten input blocks. -/
def payMem (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : FVec F S512x512 .f32 :=
  k0_pay1 (View.ld x2 rA) (k0_pay6 (View.ld x0 rA) (View.ld x1 rA) (View.ld x3 rB) (View.ld x4 rB) (View.ld x6 rD)) (k0_pay7 (View.ld x0 rA) (View.ld x1 rA) (View.ld x2 rA) (View.ld x3 rB) (View.ld x4 rB) (View.ld x5 rC) (View.ld x7 rD)) (k0_pay8 (View.ld x0 rA) (View.ld x1 rA) (View.ld x2 rA) (View.ld x3 rB) (View.ld x4 rB) (View.ld x5 rC)) (View.ld x8 rD)

/-- The new-output window's buffer after the body: its one whole-block store. -/
def outO (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : Vec F S512x512 .f32 :=
  View.canon [⟨rA, payOut x0 x1 x2 x3 x4 x5 x6 x7 x8 x9⟩]
/-- The new-memory window's buffer after the body: its one whole-block store. -/
def outM (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) : Vec F S512x512 .f32 :=
  View.canon [⟨rA, payMem x0 x1 x2 x3 x4 x5 x6 x7 x8 x9⟩]

/-- A whole-block store covers the buffer. -/
theorem coverA (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 2000000 in
/-- On whole staging buffers, the ten inputs' at contents `x0 … x9` and the two results' at anything, the body runs to
    the continuation with the inputs' as they were and the results' at `outO` and `outM` of the inputs. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1536x512 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (arg12 : Memref sig .tc .vmem S512x512 .f32) (harg12 : arg12.IsWhole)
    (x0 : Vec F S512x512 .f32) (x1 : Vec F S512x512 .f32) (x2 : Vec F S512x512 .f32) (x3 : Vec F S2048x512 .bf16) (x4 : Vec F S2048x512 .bf16) (x5 : Vec F S1536x512 .bf16) (x6 : Vec F S512x1 .f32) (x7 : Vec F S512x1 .f32) (x8 : Vec F S512x1 .f32) (x9 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outO x0 x1 x2 x3 x4 x5 x6 x7 x8 x9) ∗ owns (c : Thread nD τ) arg12 fullShare (outM x0 x1 x2 x3 x4 x5 x6 x7 x8 x9)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coverA _)
  iexists _; isplitr
  swap; · iexact H11
  ipureintro
  exact View.read_writes_eq_canon _ _ _ (coverA _)

/-! ## The proof data -/

/-- On core `c`: the arrays as the region finds them; after the body at point `t` each input's buffer at its block and
    the two results' at `outO` / `outM` of the input blocks there; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outO (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => outM (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outO (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = outM (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates and the fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.CellFrame

end
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.CellBlock.lean ====
/-
  The body's two stored blocks read at one entry.

  At a grid point the body holds three 512 × 512 state blocks (input x, previous output r, previous memory c: rows are
  features, columns the point's 512 batch columns), three stacked weights (2048 × 512 against x, 2048 × 512 against r,
  1536 × 512 against c) and four bias columns. It forms the three products, cuts each into 512-row slabs — slab 0 of
  the first two is the candidate's, slabs 1, 2, 3 the input, read and write gates'; slabs 0, 1, 2 of the third are the
  three gates' — and adds, per gate, the slabs and the gate's bias column repeated along the columns. At entry (h, q):
    candidate  = tanh    ((X[h, q]        + R[h, q])                      + b0[h])
    input gate = logistic(((X[512 + h, q]  + R[512 + h, q])  + M[h, q])        + b1[h])
    read gate  = logistic(((X[1024 + h, q] + R[1024 + h, q]) + M[512 + h, q])  + b2[h])
    write gate = logistic(((X[1536 + h, q] + R[1536 + h, q]) + M[1024 + h, q]) + b3[h])
    new memory = candidate · input gate + read gate · c[h, q],   new output = write gate · new memory
  with X, R, M the three products, each entry a sum of 512 terms. A change of float format is the identity at the
  extended reals, so the narrowing of the state blocks before the products leaves them as they are.
-/
import proofs.«118199_j54262616818002_2_alg».proof.Proof.Gen.KernelIdeal.Skeleton
import proofs.«118199_j54262616818002_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CellBlock

open Cert.KernelIdeal Cert.KernelIdeal.Gen
open Idealize.ShloMosaic Idealize.ShloMosaic.ValueIdx

/-- Row `o + h` of a stacked array of `n` rows: row `h` of the 512-row slab that starts at `o`. -/
abbrev rowB (o : Nat) (h : Fin 512) (ho : o + 512 ≤ 2048) : Fin 2048 := ⟨o + h.val, by have := h.isLt; omega⟩
abbrev rowC (o : Nat) (h : Fin 512) (ho : o + 512 ≤ 1536) : Fin 1536 := ⟨o + h.val, by have := h.isLt; omega⟩

/-- Entry `(g, q)` of a stacked 2048 × 512 weight times a 512 × 512 state block. -/
def mmB (W : S2048x512.Idx → EReal) (s : S512x512.Idx → EReal) (g : Fin 2048) (q : Fin 512) : EReal :=
  ∑ k : Fin 512, W (ix2 g k) * s (ix2 k q)
/-- Entry `(g, q)` of a stacked 1536 × 512 weight times a 512 × 512 state block. -/
def mmC (W : S1536x512.Idx → EReal) (s : S512x512.Idx → EReal) (g : Fin 1536) (q : Fin 512) : EReal :=
  ∑ k : Fin 512, W (ix2 g k) * s (ix2 k q)

/-! ## The products at an entry -/

theorem lhsB_0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsB_1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem rhsB_0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem rhsB_1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Into a zero accumulator, the product of a 2048 × 512 block with a 512 × 512 block is, at `(g, q)`, the sum over the
    512 shared coordinates of the row's entries times the column's. -/
theorem matmulB_apply (W : FVec Ideal S2048x512 .bf16) (s : FVec Ideal S512x512 .bf16) (g : Fin 2048) (q : Fin 512) :
    matmul dot_S2048x512_S512x512_S2048x512_1_0_0_1_n_n none W s (constant (F := Ideal) S2048x512 .f32 0x00000000#32) (ix2 g q) = mmB W s g q := by
  unfold mmB
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 g q) ((contrEquiv1 dot_S2048x512_S512x512_S2048x512_1_0_0_1_n_n 512 rfl rfl).symm k) = ix2 g k := funext fun a => Fin.ext (by
    match a with
    | ⟨0, _⟩ => exact lhsB_0 _ _
    | ⟨1, _⟩ => exact (lhsB_1 _ _).trans hk)
  have er : dot_S2048x512_S512x512_S2048x512_1_0_0_1_n_n.rhsIdx (ix2 g q) ((contrEquiv1 dot_S2048x512_S512x512_S2048x512_1_0_0_1_n_n 512 rfl rfl).symm k) = ix2 k q := funext fun a => Fin.ext (by
    match a with
    | ⟨0, _⟩ => exact (rhsB_0 _ _).trans hk
    | ⟨1, _⟩ => exact rhsB_1 _ _)
  rw [el, er]

theorem lhsC_0 (i : S1536x512.Idx) (q : dot_S1536x512_S512x512_S1536x512_1_0_0_1_n_n.contr.Idx) : (dot_S1536x512_S512x512_S1536x512_1_0_0_1_n_n.lhsIdx i q 0).val = (i 0).val := by
  unfold DotDims.lhsIdx
  rw [dif_neg (show ¬(0 : Fin S1536x512.rank) ∈ dot_S1536x512_S512x512_S1536x512_1_0_0_1_n_n.lhsBatch by decide), dif_pos (show (0 : Fin S1536x512.rank) ∈ dot_S1536x512_S512x512_S1536x512_1_0_0_1_n_n.lhsNonContracting by decide)]
  rfl
theorem lhsC_1 (i : S1536x512.Idx) (q : dot_S1536x512_S512x512_S1536x512_1_0_0_1_n_n.contr.Idx) : (dot_S1536x512_S512x512_S1536x512_1_0_0_1_n_n.lhsIdx i q 1).val = (q ⟨0, by decide⟩).val :=
  dot_S1536x512_S512x512_S1536x512_1_0_0_1_n_n.lhsIdx_val_of_single rfl i q
theorem rhsC_0 (i : S1536x512.Idx) (q : dot_S1536x512_S512x512_S1536x512_1_0_0_1_n_n.contr.Idx) : (dot_S1536x512_S512x512_S1536x512_1_0_0_1_n_n.rhsIdx i q 0).val = (q ⟨0, by decide⟩).val :=
  dot_S1536x512_S512x512_S1536x512_1_0_0_1_n_n.rhsIdx_val_of_single rfl i q
theorem rhsC_1 (i : S1536x512.Idx) (q : dot_S1536x512_S512x512_S1536x512_1_0_0_1_n_n.contr.Idx) : (dot_S1536x512_S512x512_S1536x512_1_0_0_1_n_n.rhsIdx i q 1).val = (i 1).val := by
  unfold DotDims.rhsIdx
  rw [dif_neg (show ¬(1 : Fin S512x512.rank) ∈ dot_S1536x512_S512x512_S1536x512_1_0_0_1_n_n.rhsBatch by decide), dif_pos (show (1 : Fin S512x512.rank) ∈ dot_S1536x512_S512x512_S1536x512_1_0_0_1_n_n.rhsNonContracting by decide)]
  rfl

/-- Into a zero accumulator, the product of a 1536 × 512 block with a 512 × 512 block is, at `(g, q)`, the sum over the
    512 shared coordinates of the row's entries times the column's. -/
theorem matmulC_apply (W : FVec Ideal S1536x512 .bf16) (s : FVec Ideal S512x512 .bf16) (g : Fin 1536) (q : Fin 512) :
    matmul dot_S1536x512_S512x512_S1536x512_1_0_0_1_n_n none W s (constant (F := Ideal) S1536x512 .f32 0x00000000#32) (ix2 g q) = mmC W s g q := by
  unfold mmC
  simp only [matmul]
  rw [Ideal.matmul_constant_zero_apply, ← Equiv.sum_comp (contrEquiv1 dot_S1536x512_S512x512_S1536x512_1_0_0_1_n_n 512 rfl rfl).symm]
  refine Finset.sum_congr rfl fun k _ => ?_
  have hk := contrEquiv1_symm_val dot_S1536x512_S512x512_S1536x512_1_0_0_1_n_n 512 rfl rfl k
  have el : dot_S1536x512_S512x512_S1536x512_1_0_0_1_n_n.lhsIdx (ix2 g q) ((contrEquiv1 dot_S1536x512_S512x512_S1536x512_1_0_0_1_n_n 512 rfl rfl).symm k) = ix2 g k := funext fun a => Fin.ext (by
    match a with
    | ⟨0, _⟩ => exact lhsC_0 _ _
    | ⟨1, _⟩ => exact (lhsC_1 _ _).trans hk)
  have er : dot_S1536x512_S512x512_S1536x512_1_0_0_1_n_n.rhsIdx (ix2 g q) ((contrEquiv1 dot_S1536x512_S512x512_S1536x512_1_0_0_1_n_n 512 rfl rfl).symm k) = ix2 k q := funext fun a => Fin.ext (by
    match a with
    | ⟨0, _⟩ => exact (rhsC_0 _ _).trans hk
    | ⟨1, _⟩ => exact rhsC_1 _ _)
  rw [el, er]

variable (v0 v1 v2 : Vec Ideal S512x512 .f32) (v6 v9 : Vec Ideal S2048x512 .bf16) (v12 : Vec Ideal S1536x512 .bf16)
  (v18 v28 v38 v48 : Vec Ideal S512x1 .f32)

theorem pay3_apply (g : Fin 2048) (q : Fin 512) : k0_pay3 (F := Ideal) v0 v6 (ix2 g q) = mmB v6 v0 g q := by
  unfold k0_pay3
  show matmul dot_S2048x512_S512x512_S2048x512_1_0_0_1_n_n none (shapeCast S2048x512 v6 shapeCasts_S2048x512_S2048x512) (truncf .bf16 v0 bitsLt_bf16_f32) (constant (F := Ideal) S2048x512 .f32 0x00000000#32) (ix2 g q) = _
  rw [shapeCast_self]
  exact matmulB_apply _ _ g q
theorem pay4_apply (g : Fin 2048) (q : Fin 512) : k0_pay4 (F := Ideal) v1 v9 (ix2 g q) = mmB v9 v1 g q := by
  unfold k0_pay4
  show matmul dot_S2048x512_S512x512_S2048x512_1_0_0_1_n_n none (shapeCast S2048x512 v9 shapeCasts_S2048x512_S2048x512) (truncf .bf16 v1 bitsLt_bf16_f32) (constant (F := Ideal) S2048x512 .f32 0x00000000#32) (ix2 g q) = _
  rw [shapeCast_self]
  exact matmulB_apply _ _ g q
theorem pay5_apply (g : Fin 1536) (q : Fin 512) : k0_pay5 (F := Ideal) v2 v12 (ix2 g q) = mmC v12 v2 g q := by
  unfold k0_pay5
  show matmul dot_S1536x512_S512x512_S1536x512_1_0_0_1_n_n none (shapeCast S1536x512 v12 shapeCasts_S1536x512_S1536x512) (truncf .bf16 v2 bitsLt_bf16_f32) (constant (F := Ideal) S1536x512 .f32 0x00000000#32) (ix2 g q) = _
  rw [shapeCast_self]
  exact matmulC_apply _ _ g q

/-! ## A 512-row slab of a product, and a bias column repeated along the columns -/

theorem sliceB0 (X : S2048x512.Idx → EReal) (hs : S2048x512.Slices ![0, 0] S512x512) (h q : Fin 512) :
    extractStridedSlice S512x512 ![0, 0] X hs (ix2 h q) = X (ix2 (rowB 0 h (by norm_num)) q) :=
  slice2_axis0_apply 0 X hs h q (rowB 0 h (by norm_num)) rfl
theorem sliceB512 (X : S2048x512.Idx → EReal) (hs : S2048x512.Slices ![512, 0] S512x512) (h q : Fin 512) :
    extractStridedSlice S512x512 ![512, 0] X hs (ix2 h q) = X (ix2 (rowB 512 h (by norm_num)) q) :=
  slice2_axis0_apply 512 X hs h q (rowB 512 h (by norm_num)) rfl
theorem sliceB1024 (X : S2048x512.Idx → EReal) (hs : S2048x512.Slices ![1024, 0] S512x512) (h q : Fin 512) :
    extractStridedSlice S512x512 ![1024, 0] X hs (ix2 h q) = X (ix2 (rowB 1024 h (by norm_num)) q) :=
  slice2_axis0_apply 1024 X hs h q (rowB 1024 h (by norm_num)) rfl
theorem sliceB1536 (X : S2048x512.Idx → EReal) (hs : S2048x512.Slices ![1536, 0] S512x512) (h q : Fin 512) :
    extractStridedSlice S512x512 ![1536, 0] X hs (ix2 h q) = X (ix2 (rowB 1536 h (by norm_num)) q) :=
  slice2_axis0_apply 1536 X hs h q (rowB 1536 h (by norm_num)) rfl
theorem sliceC0 (X : S1536x512.Idx → EReal) (hs : S1536x512.Slices ![0, 0] S512x512) (h q : Fin 512) :
    extractStridedSlice S512x512 ![0, 0] X hs (ix2 h q) = X (ix2 (rowC 0 h (by norm_num)) q) :=
  slice2_axis0_apply 0 X hs h q (rowC 0 h (by norm_num)) rfl
theorem sliceC512 (X : S1536x512.Idx → EReal) (hs : S1536x512.Slices ![512, 0] S512x512) (h q : Fin 512) :
    extractStridedSlice S512x512 ![512, 0] X hs (ix2 h q) = X (ix2 (rowC 512 h (by norm_num)) q) :=
  slice2_axis0_apply 512 X hs h q (rowC 512 h (by norm_num)) rfl
theorem sliceC1024 (X : S1536x512.Idx → EReal) (hs : S1536x512.Slices ![1024, 0] S512x512) (h q : Fin 512) :
    extractStridedSlice S512x512 ![1024, 0] X hs (ix2 h q) = X (ix2 (rowC 1024 h (by norm_num)) q) :=
  slice2_axis0_apply 1024 X hs h q (rowC 1024 h (by norm_num)) rfl

/-- A bias column repeated along the 512 columns reads, at `(h, q)`, the column's entry `h`. -/
theorem bias_apply (v : Vec Ideal S512x1 .f32) (h q : Fin 512) :
    (broadcastTo S512x512 (shapeCast S512x1 v shapeCasts_S512x1_S512x1 : FVec Ideal S512x1 .f32) broadcasts_S512x1_S512x512 : FVec Ideal S512x512 .f32) (ix2 h q)
      = v (ix2 h (0 : Fin 1)) := by
  rw [shapeCast_self]
  exact Cert.LibColumn.broadcastTo_a1_ab_apply (α := Ideal .f32) v _ h q

/-! ## The four logits, the new memory and the new output of a block at an entry -/

def candB (h q : Fin 512) : EReal :=
  (mmB v6 v0 (rowB 0 h (by norm_num)) q + mmB v9 v1 (rowB 0 h (by norm_num)) q) + v18 (ix2 h (0 : Fin 1))
def inpGateB (h q : Fin 512) : EReal :=
  ((mmB v6 v0 (rowB 512 h (by norm_num)) q + mmB v9 v1 (rowB 512 h (by norm_num)) q) + mmC v12 v2 (rowC 0 h (by norm_num)) q) + v28 (ix2 h (0 : Fin 1))
def readGateB (h q : Fin 512) : EReal :=
  ((mmB v6 v0 (rowB 1024 h (by norm_num)) q + mmB v9 v1 (rowB 1024 h (by norm_num)) q) + mmC v12 v2 (rowC 512 h (by norm_num)) q) + v38 (ix2 h (0 : Fin 1))
def writeGateB (h q : Fin 512) : EReal :=
  ((mmB v6 v0 (rowB 1536 h (by norm_num)) q + mmB v9 v1 (rowB 1536 h (by norm_num)) q) + mmC v12 v2 (rowC 1024 h (by norm_num)) q) + v48 (ix2 h (0 : Fin 1))
def memB (h q : Fin 512) : EReal :=
  Ideal.tanh (candB v0 v1 v6 v9 v18 h q) * Ideal.logistic (inpGateB v0 v1 v2 v6 v9 v12 v28 h q)
    + Ideal.logistic (readGateB v0 v1 v2 v6 v9 v12 v38 h q) * v2 (ix2 h q)
def outB (h q : Fin 512) : EReal :=
  Ideal.logistic (writeGateB v0 v1 v2 v6 v9 v12 v48 h q) * memB v0 v1 v2 v6 v9 v12 v18 v28 v38 h q

theorem pay6_apply (h q : Fin 512) : k0_pay6 (F := Ideal) v0 v1 v6 v9 v18 (ix2 h q) = Ideal.tanh (candB v0 v1 v6 v9 v18 h q) := by
  unfold candB
  simp only [k0_pay6, tanh, addf, Ideal.tanh_def, Ideal.addf_def, sliceB0, bias_apply, pay3_apply, pay4_apply]

theorem pay7_apply (h q : Fin 512) : k0_pay7 (F := Ideal) v0 v1 v2 v6 v9 v12 v28 (ix2 h q) = Ideal.logistic (inpGateB v0 v1 v2 v6 v9 v12 v28 h q) := by
  unfold inpGateB
  simp only [k0_pay7, logistic, addf, Ideal.logistic_def, Ideal.addf_def, sliceB512, sliceC0, bias_apply, pay3_apply, pay4_apply, pay5_apply]

theorem pay8_apply (h q : Fin 512) : k0_pay8 (F := Ideal) v0 v1 v2 v6 v9 v12 (ix2 h q)
    = (mmB v6 v0 (rowB 1024 h (by norm_num)) q + mmB v9 v1 (rowB 1024 h (by norm_num)) q) + mmC v12 v2 (rowC 512 h (by norm_num)) q := by
  simp only [k0_pay8, addf, Ideal.addf_def, sliceB1024, sliceC512, pay3_apply, pay4_apply, pay5_apply]

/-- The stored new-memory block at `(h, q)`. -/
theorem payMem_apply (h q : Fin 512) :
    k0_pay1 (F := Ideal) v2 (k0_pay6 v0 v1 v6 v9 v18) (k0_pay7 v0 v1 v2 v6 v9 v12 v28) (k0_pay8 v0 v1 v2 v6 v9 v12) v38 (ix2 h q)
      = memB v0 v1 v2 v6 v9 v12 v18 v28 v38 h q := by
  unfold memB readGateB
  simp only [k0_pay1, logistic, addf, mulf, Ideal.logistic_def, Ideal.addf_def, Ideal.mulf_def, bias_apply, pay6_apply, pay7_apply, pay8_apply]

/-- The stored new-output block at `(h, q)`. -/
theorem payOut_apply (h q : Fin 512) :
    k0_pay2 (F := Ideal) v2 (k0_pay3 v0 v6) (k0_pay4 v1 v9) (k0_pay5 v2 v12) (k0_pay6 v0 v1 v6 v9 v18) (k0_pay7 v0 v1 v2 v6 v9 v12 v28)
        (k0_pay8 v0 v1 v2 v6 v9 v12) v38 v48 (ix2 h q)
      = outB v0 v1 v2 v6 v9 v12 v18 v28 v38 v48 h q := by
  unfold outB writeGateB
  simp only [k0_pay2, logistic, addf, mulf, Ideal.logistic_def, Ideal.addf_def, Ideal.mulf_def, sliceB1536, sliceC1024, bias_apply,
    pay3_apply, pay4_apply, pay5_apply, payMem_apply]

end Cert.KernelIdeal.CellBlock

end
-- ==== Proof.CellHost.lean ====
/-
  The arrays the region finds at its seven resident windows, read back to the argument arrays.

  Before the region the program cuts each 513-column weight into its first 512 columns and its last (bias) column,
  stacks the four input-side weights by rows (candidate, input gate, read gate, write gate), the four recurrent
  weights likewise, and the three memory-side weights (input, read, write gate); it adds, per gate, the input-side and
  recurrent bias columns. So row `512·i + h`, column `k` of a stack is row `h`, column `k` of its i-th weight, and
  entry `h` of a gate's bias is the sum of the two weights' entries `(h, 512)`. The narrowing of the stacks is the
  identity at the extended reals.
-/
import proofs.«118199_j54262616818002_2_alg».proof.Proof.KernelIdealFrame
import proofs.«118199_j54262616818002_2_alg».proof.Proof.CellBlock
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.CellHost

open Cert.KernelIdeal Cert.KernelIdeal.Gen Cert.KernelIdeal.CellFrame Cert.KernelIdeal.CellBlock
open Idealize.ShloMosaic Idealize.ShloMosaic.TcCoe Idealize.SL.Sem Idealize.ShloMosaic.StableHlo Idealize.ShloMosaic.ValueIdx

/-- A host operation of three operands leaves, in its result buffer, its function of the three operands' contents,
    each taken at its own buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a literal list of host operations: each operation's result at its own buffer is its
    function's value, at any other buffer what was there. -/
macro "host_results" : tactic =>
  `(tactic| (simp only [after_cons, after_nil]
             repeat (first
               | rw [unary_result] | rw [binary_result] | rw [nary4_result] | rw [nary3_result]
               | (rw [unary_result_ne]; rotate_left; decide)
               | (rw [binary_result_ne]; rotate_left; decide)
               | (rw [nary_result_ne]; rotate_left; decide))))

variable (m : (ℓ : Loc nD τ sig) → Buf (Elt Ideal) ℓ) (c : Dev nD)

/-! ## The seven arrays as terms of the arguments -/

set_option maxHeartbeats 1000000 in
theorem V_stackX : @Eq (S2048x512.Idx → EReal) (V m c main_v21) (truncf (F := Ideal) .bf16 (concatenate S2048x512 0 [⟨S512x512, (extractStridedSlice S512x512 ![0, 0] (m ((c : Thread nD τ).loc main_arg6) : S512x513.Idx → EReal) slices_S512x513_S512x512_0_0)⟩, ⟨S512x512, (extractStridedSlice S512x512 ![0, 0] (m ((c : Thread nD τ).loc main_arg3) : S512x513.Idx → EReal) slices_S512x513_S512x512_0_0)⟩, ⟨S512x512, (extractStridedSlice S512x512 ![0, 0] (m ((c : Thread nD τ).loc main_arg8) : S512x513.Idx → EReal) slices_S512x513_S512x512_0_0)⟩, ⟨S512x512, (extractStridedSlice S512x512 ![0, 0] (m ((c : Thread nD τ).loc main_arg11) : S512x513.Idx → EReal) slices_S512x513_S512x512_0_0)⟩] concatenates_S512x512_S512x512_S512x512_S512x512_S2048x512_d0) bitsLt_bf16_f32) := by
  dsimp only [V, hostOps0]; host_results; try rfl
set_option maxHeartbeats 1000000 in
theorem V_stackR : @Eq (S2048x512.Idx → EReal) (V m c main_v23) (truncf (F := Ideal) .bf16 (concatenate S2048x512 0 [⟨S512x512, (extractStridedSlice S512x512 ![0, 0] (m ((c : Thread nD τ).loc main_arg7) : S512x513.Idx → EReal) slices_S512x513_S512x512_0_0)⟩, ⟨S512x512, (extractStridedSlice S512x512 ![0, 0] (m ((c : Thread nD τ).loc main_arg4) : S512x513.Idx → EReal) slices_S512x513_S512x512_0_0)⟩, ⟨S512x512, (extractStridedSlice S512x512 ![0, 0] (m ((c : Thread nD τ).loc main_arg9) : S512x513.Idx → EReal) slices_S512x513_S512x512_0_0)⟩, ⟨S512x512, (extractStridedSlice S512x512 ![0, 0] (m ((c : Thread nD τ).loc main_arg12) : S512x513.Idx → EReal) slices_S512x513_S512x512_0_0)⟩] concatenates_S512x512_S512x512_S512x512_S512x512_S2048x512_d0) bitsLt_bf16_f32) := by
  dsimp only [V, hostOps0]; host_results; try rfl
set_option maxHeartbeats 1000000 in
theorem V_stackM : @Eq (S1536x512.Idx → EReal) (V m c main_v25) (truncf (F := Ideal) .bf16 (concatenate S1536x512 0 [⟨S512x512, (m ((c : Thread nD τ).loc main_arg5) : S512x512.Idx → EReal)⟩, ⟨S512x512, (m ((c : Thread nD τ).loc main_arg10) : S512x512.Idx → EReal)⟩, ⟨S512x512, (m ((c : Thread nD τ).loc main_arg13) : S512x512.Idx → EReal)⟩] concatenates_S512x512_S512x512_S512x512_S1536x512_d0) bitsLt_bf16_f32) := by
  dsimp only [V, hostOps0]; host_results; try rfl
set_option maxHeartbeats 1000000 in
theorem V_bias0 : @Eq (S512x1.Idx → EReal) (V m c main_v4) (addf (F := Ideal) (φ := .f32) (extractStridedSlice S512x1 ![0, 512] (m ((c : Thread nD τ).loc main_arg6) : S512x513.Idx → EReal) slices_S512x513_S512x1_0_512) (extractStridedSlice S512x1 ![0, 512] (m ((c : Thread nD τ).loc main_arg7) : S512x513.Idx → EReal) slices_S512x513_S512x1_0_512)) := by
  dsimp only [V, hostOps0]; host_results; try rfl
set_option maxHeartbeats 1000000 in
theorem V_bias1 : @Eq (S512x1.Idx → EReal) (V m c main_v9) (addf (F := Ideal) (φ := .f32) (extractStridedSlice S512x1 ![0, 512] (m ((c : Thread nD τ).loc main_arg3) : S512x513.Idx → EReal) slices_S512x513_S512x1_0_512) (extractStridedSlice S512x1 ![0, 512] (m ((c : Thread nD τ).loc main_arg4) : S512x513.Idx → EReal) slices_S512x513_S512x1_0_512)) := by
  dsimp only [V, hostOps0]; host_results; try rfl
set_option maxHeartbeats 1000000 in
theorem V_bias2 : @Eq (S512x1.Idx → EReal) (V m c main_v14) (addf (F := Ideal) (φ := .f32) (extractStridedSlice S512x1 ![0, 512] (m ((c : Thread nD τ).loc main_arg8) : S512x513.Idx → EReal) slices_S512x513_S512x1_0_512) (extractStridedSlice S512x1 ![0, 512] (m ((c : Thread nD τ).loc main_arg9) : S512x513.Idx → EReal) slices_S512x513_S512x1_0_512)) := by
  dsimp only [V, hostOps0]; host_results; try rfl
set_option maxHeartbeats 1000000 in
theorem V_bias3 : @Eq (S512x1.Idx → EReal) (V m c main_v19) (addf (F := Ideal) (φ := .f32) (extractStridedSlice S512x1 ![0, 512] (m ((c : Thread nD τ).loc main_arg11) : S512x513.Idx → EReal) slices_S512x513_S512x1_0_512) (extractStridedSlice S512x1 ![0, 512] (m ((c : Thread nD τ).loc main_arg12) : S512x513.Idx → EReal) slices_S512x513_S512x1_0_512)) := by
  dsimp only [V, hostOps0]; host_results; try rfl

/-! ## Stacks, cuts and bias columns at an entry -/

/-- The first 512 columns of a 513-column weight, at `(h, k)`. -/
theorem cutW_apply (X : S512x513.Idx → EReal) (h k : Fin 512) :
    extractStridedSlice S512x512 ![0, 0] X slices_S512x513_S512x512_0_0 (ix2 h k) = X (ix2 h k.castSucc) :=
  slice2_axis1_apply 0 X slices_S512x513_S512x512_0_0 h k k.castSucc (by simp)

/-- The last column of a 513-column weight, at `(h, 0)`. -/
theorem cutB_apply (X : S512x513.Idx → EReal) (h : Fin 512) :
    extractStridedSlice S512x1 ![0, 512] X slices_S512x513_S512x1_0_512 (ix2 h (0 : Fin 1)) = X (ix2 h (Fin.last 512)) :=
  slice2_axis1_apply 512 X slices_S512x513_S512x1_0_512 h (0 : Fin 1) (Fin.last 512) (by simp)

/-- Four 512-row arrays stacked by rows: row `512·i + h` is row `h` of the i-th. -/
theorem stack4_apply (X0 X1 X2 X3 : S512x512.Idx → EReal) (hc : Shape.Concatenates [S512x512, S512x512, S512x512, S512x512] S2048x512 0) (h k : Fin 512) :
    concatenate S2048x512 0 [⟨S512x512, X0⟩, ⟨S512x512, X1⟩, ⟨S512x512, X2⟩, ⟨S512x512, X3⟩] hc (ix2 (rowB 0 h (by norm_num)) k) = X0 (ix2 h k)
    ∧ concatenate S2048x512 0 [⟨S512x512, X0⟩, ⟨S512x512, X1⟩, ⟨S512x512, X2⟩, ⟨S512x512, X3⟩] hc (ix2 (rowB 512 h (by norm_num)) k) = X1 (ix2 h k)
    ∧ concatenate S2048x512 0 [⟨S512x512, X0⟩, ⟨S512x512, X1⟩, ⟨S512x512, X2⟩, ⟨S512x512, X3⟩] hc (ix2 (rowB 1024 h (by norm_num)) k) = X2 (ix2 h k)
    ∧ concatenate S2048x512 0 [⟨S512x512, X0⟩, ⟨S512x512, X1⟩, ⟨S512x512, X2⟩, ⟨S512x512, X3⟩] hc (ix2 (rowB 1536 h (by norm_num)) k) = X3 (ix2 h k) := by
  have hi : ∀ b : Fin S512x512.rank, b.cast (rfl : S512x512.rank = S2048x512.rank) ≠ (0 : Fin S2048x512.rank) →
      ∀ g : Fin 2048, ((ix2 h k : S512x512.Idx) b).val = ((ix2 g k : S2048x512.Idx) (b.cast rfl)).val := fun b hb g => by
    match b with
    | ⟨0, _⟩ => exact absurd rfl hb
    | ⟨1, _⟩ => rfl
  refine ⟨?_, ?_, ?_, ?_⟩
  · exact concatenate_apply_piece (α := EReal) (t := S2048x512) 0 [⟨S512x512, X0⟩, ⟨S512x512, X1⟩, ⟨S512x512, X2⟩, ⟨S512x512, X3⟩] hc (ix2 (rowB 0 h (by norm_num)) k) 0 (by simp) S512x512 X0 rfl rfl 0 rfl (ix2 h k) (fun b hb => hi b hb _) rfl
  · exact concatenate_apply_piece (α := EReal) (t := S2048x512) 0 [⟨S512x512, X0⟩, ⟨S512x512, X1⟩, ⟨S512x512, X2⟩, ⟨S512x512, X3⟩] hc (ix2 (rowB 512 h (by norm_num)) k) 1 (by simp) S512x512 X1 rfl rfl 512 rfl (ix2 h k) (fun b hb => hi b hb _) rfl
  · exact concatenate_apply_piece (α := EReal) (t := S2048x512) 0 [⟨S512x512, X0⟩, ⟨S512x512, X1⟩, ⟨S512x512, X2⟩, ⟨S512x512, X3⟩] hc (ix2 (rowB 1024 h (by norm_num)) k) 2 (by simp) S512x512 X2 rfl rfl 1024 rfl (ix2 h k) (fun b hb => hi b hb _) rfl
  · exact concatenate_apply_piece (α := EReal) (t := S2048x512) 0 [⟨S512x512, X0⟩, ⟨S512x512, X1⟩, ⟨S512x512, X2⟩, ⟨S512x512, X3⟩] hc (ix2 (rowB 1536 h (by norm_num)) k) 3 (by simp) S512x512 X3 rfl rfl 1536 rfl (ix2 h k) (fun b hb => hi b hb _) rfl

/-- Three 512-row arrays stacked by rows. -/
theorem stack3_apply (X0 X1 X2 : S512x512.Idx → EReal) (hc : Shape.Concatenates [S512x512, S512x512, S512x512] S1536x512 0) (h k : Fin 512) :
    concatenate S1536x512 0 [⟨S512x512, X0⟩, ⟨S512x512, X1⟩, ⟨S512x512, X2⟩] hc (ix2 (rowC 0 h (by norm_num)) k) = X0 (ix2 h k)
    ∧ concatenate S1536x512 0 [⟨S512x512, X0⟩, ⟨S512x512, X1⟩, ⟨S512x512, X2⟩] hc (ix2 (rowC 512 h (by norm_num)) k) = X1 (ix2 h k)
    ∧ concatenate S1536x512 0 [⟨S512x512, X0⟩, ⟨S512x512, X1⟩, ⟨S512x512, X2⟩] hc (ix2 (rowC 1024 h (by norm_num)) k) = X2 (ix2 h k) := by
  have hi : ∀ b : Fin S512x512.rank, b.cast (rfl : S512x512.rank = S1536x512.rank) ≠ (0 : Fin S1536x512.rank) →
      ∀ g : Fin 1536, ((ix2 h k : S512x512.Idx) b).val = ((ix2 g k : S1536x512.Idx) (b.cast rfl)).val := fun b hb g => by
    match b with
    | ⟨0, _⟩ => exact absurd rfl hb
    | ⟨1, _⟩ => rfl
  refine ⟨?_, ?_, ?_⟩
  · exact concatenate_apply_piece (α := EReal) (t := S1536x512) 0 [⟨S512x512, X0⟩, ⟨S512x512, X1⟩, ⟨S512x512, X2⟩] hc (ix2 (rowC 0 h (by norm_num)) k) 0 (by simp) S512x512 X0 rfl rfl 0 rfl (ix2 h k) (fun b hb => hi b hb _) rfl
  · exact concatenate_apply_piece (α := EReal) (t := S1536x512) 0 [⟨S512x512, X0⟩, ⟨S512x512, X1⟩, ⟨S512x512, X2⟩] hc (ix2 (rowC 512 h (by norm_num)) k) 1 (by simp) S512x512 X1 rfl rfl 512 rfl (ix2 h k) (fun b hb => hi b hb _) rfl
  · exact concatenate_apply_piece (α := EReal) (t := S1536x512) 0 [⟨S512x512, X0⟩, ⟨S512x512, X1⟩, ⟨S512x512, X2⟩] hc (ix2 (rowC 1024 h (by norm_num)) k) 2 (by simp) S512x512 X2 rfl rfl 1024 rfl (ix2 h k) (fun b hb => hi b hb _) rfl

end Cert.KernelIdeal.CellHost

end
-- ==== Proof.CellSpec.lean ====
/-
  The memory cell's two results as functions of its fourteen argument arrays, index by index, over the extended reals.

  Shapes: the hidden, input and memory sizes are all 512 and the batch is 32768. An input-side or recurrent weight is
  512 × 513: its first 512 columns multiply the state, its last column is a bias (the product with a row of ones). A
  memory-side weight is 512 × 512 and carries no bias.

  With  aff W s = W[:, :512] · s + W[:, 512]  and  lin W s = W · s :
    candidate   = tanh   (aff w_inp x       + aff w_rec_inp r)
    input gate  = logistic((aff w_inpgate x   + lin w_mem_inpgate c)   + aff w_rec_inpgate r)
    read gate   = logistic((aff w_readgate x  + aff w_rec_readgate r)  + lin w_mem_readgate c)
    write gate  = logistic((aff w_writegate x + lin w_mem_writegate c) + aff w_rec_writegate r)
    new memory  = candidate · input gate + read gate · c
    new output  = write gate · new memory
  where x is the input, r the previous output and c the previous memory.
-/
import Idealize.ShloMosaic.PureOps.Ideal
import Idealize.ShloMosaic.Lib.ValueIdx

noncomputable section

open scoped BigOperators

namespace Cert.CellSpec

open Idealize.ShloMosaic Idealize.ShloMosaic.ValueIdx

/-- A weight with a bias column, a weight without, and a state array. -/
abbrev WB : Shape := ⟨2, ![512, 513]⟩
abbrev WM : Shape := ⟨2, ![512, 512]⟩
abbrev ST : Shape := ⟨2, ![512, 32768]⟩

/-- The fourteen argument arrays, in the order the programs take them. -/
structure Args where
  x : ST.Idx → EReal
  r : ST.Idx → EReal
  c : ST.Idx → EReal
  wInpGate : WB.Idx → EReal
  wRecInpGate : WB.Idx → EReal
  wMemInpGate : WM.Idx → EReal
  wInp : WB.Idx → EReal
  wRecInp : WB.Idx → EReal
  wReadGate : WB.Idx → EReal
  wRecReadGate : WB.Idx → EReal
  wMemReadGate : WM.Idx → EReal
  wWriteGate : WB.Idx → EReal
  wRecWriteGate : WB.Idx → EReal
  wMemWriteGate : WM.Idx → EReal

/-- Row `h` of `W[:, :512] · s + W[:, 512]` at batch column `b`. -/
def aff (W : WB.Idx → EReal) (s : ST.Idx → EReal) (h : Fin 512) (b : Fin 32768) : EReal :=
  (∑ k : Fin 512, W (ix2 h k.castSucc) * s (ix2 k b)) + W (ix2 h (Fin.last 512))

/-- Row `h` of `W · s` at batch column `b`. -/
def lin (W : WM.Idx → EReal) (s : ST.Idx → EReal) (h : Fin 512) (b : Fin 32768) : EReal :=
  ∑ k : Fin 512, W (ix2 h k) * s (ix2 k b)

def candLogit (a : Args) (h : Fin 512) (b : Fin 32768) : EReal :=
  aff a.wInp a.x h b + aff a.wRecInp a.r h b
def inpGateLogit (a : Args) (h : Fin 512) (b : Fin 32768) : EReal :=
  (aff a.wInpGate a.x h b + lin a.wMemInpGate a.c h b) + aff a.wRecInpGate a.r h b
def readGateLogit (a : Args) (h : Fin 512) (b : Fin 32768) : EReal :=
  (aff a.wReadGate a.x h b + aff a.wRecReadGate a.r h b) + lin a.wMemReadGate a.c h b
def writeGateLogit (a : Args) (h : Fin 512) (b : Fin 32768) : EReal :=
  (aff a.wWriteGate a.x h b + lin a.wMemWriteGate a.c h b) + aff a.wRecWriteGate a.r h b

/-- The new memory at row `h`, batch column `b`. -/
def memAt (a : Args) (h : Fin 512) (b : Fin 32768) : EReal :=
  Ideal.tanh (candLogit a h b) * Ideal.logistic (inpGateLogit a h b) + Ideal.logistic (readGateLogit a h b) * a.c (ix2 h b)

/-- The new output at row `h`, batch column `b`. -/
def outAt (a : Args) (h : Fin 512) (b : Fin 32768) : EReal :=
  Ideal.logistic (writeGateLogit a h b) * memAt a h b

/-- The new memory as an array. -/
def mem (a : Args) : ST.Idx → EReal := fun j => memAt a (j 0) (j 1)
/-- The new output as an array. -/
def out (a : Args) : ST.Idx → EReal := fun j => outAt a (j 0) (j 1)

/-- Four sums regrouped: addition on the extended reals is commutative and associative (no finiteness is needed). -/
theorem add4_comm (p q u v : EReal) : (p + q) + (u + v) = (p + u) + (q + v) := add_add_add_comm p q u v

end Cert.CellSpec

end
-- ==== Proof.CellAlgebra.lean ====
/-
  A block of the cell at a grid point against the specification.

  Suppose that at point t the three state blocks are columns 512·t … 512·t + 511 of the state arrays, that row 512·i + h
  of a stacked weight is row h of its i-th weight (first 512 columns), and that a gate's bias column is the sum of its
  two weights' last columns. Then each of the body's logits at (h, q) is the specification's at row h, batch column
  512·t + q. The body adds  (products) + (bias + bias)  where the specification adds  (product + bias) + (product + bias)
  with the memory-side product in the middle or at the end: the same terms regrouped, and addition on the extended reals
  is commutative and associative, so nothing need be finite.
-/
import proofs.«118199_j54262616818002_2_alg».proof.Proof.CellSpec
import proofs.«118199_j54262616818002_2_alg».proof.Proof.CellBlock

noncomputable section

open scoped BigOperators

namespace Cert.KernelIdeal.CellAlgebra

open Cert.KernelIdeal Cert.KernelIdeal.Gen Cert.KernelIdeal.CellBlock Cert.CellSpec
open Idealize.ShloMosaic Idealize.ShloMosaic.ValueIdx

/-- Batch column `512·t + q`: column `q` of point `t`'s block. -/
abbrev col (t : Fin 64) (q : Fin 512) : Fin 32768 := ⟨512 * t.val + q.val, by have := t.isLt; have := q.isLt; omega⟩

theorem regroup_mid (p q s u v : EReal) : ((p + q) + s) + (u + v) = ((p + u) + s) + (q + v) := by
  rw [add_right_comm (p + q) s, add_add_add_comm p q u v, add_right_comm (p + u) (q + v) s]
theorem regroup_end (p q s u v : EReal) : ((p + q) + s) + (u + v) = ((p + u) + (q + v)) + s := by
  rw [add_right_comm (p + q) s, add_add_add_comm p q u v]

variable (a : Args) (t : Fin 64)
  (x0 x1 x2 : Vec Ideal S512x512 .f32) (x3 x4 : Vec Ideal S2048x512 .bf16) (x5 : Vec Ideal S1536x512 .bf16)
  (x6 x7 x8 x9 : Vec Ideal S512x1 .f32)

/-- The ten blocks at point `t` are the stated restrictions of the argument arrays. -/
structure Blocks : Prop where
  hx : ∀ k q : Fin 512, x0 (ix2 k q) = a.x (ix2 k (col t q))
  hr : ∀ k q : Fin 512, x1 (ix2 k q) = a.r (ix2 k (col t q))
  hc : ∀ k q : Fin 512, x2 (ix2 k q) = a.c (ix2 k (col t q))
  hX0 : ∀ h k : Fin 512, x3 (ix2 (rowB 0 h (by norm_num)) k) = a.wInp (ix2 h k.castSucc)
  hX1 : ∀ h k : Fin 512, x3 (ix2 (rowB 512 h (by norm_num)) k) = a.wInpGate (ix2 h k.castSucc)
  hX2 : ∀ h k : Fin 512, x3 (ix2 (rowB 1024 h (by norm_num)) k) = a.wReadGate (ix2 h k.castSucc)
  hX3 : ∀ h k : Fin 512, x3 (ix2 (rowB 1536 h (by norm_num)) k) = a.wWriteGate (ix2 h k.castSucc)
  hR0 : ∀ h k : Fin 512, x4 (ix2 (rowB 0 h (by norm_num)) k) = a.wRecInp (ix2 h k.castSucc)
  hR1 : ∀ h k : Fin 512, x4 (ix2 (rowB 512 h (by norm_num)) k) = a.wRecInpGate (ix2 h k.castSucc)
  hR2 : ∀ h k : Fin 512, x4 (ix2 (rowB 1024 h (by norm_num)) k) = a.wRecReadGate (ix2 h k.castSucc)
  hR3 : ∀ h k : Fin 512, x4 (ix2 (rowB 1536 h (by norm_num)) k) = a.wRecWriteGate (ix2 h k.castSucc)
  hM0 : ∀ h k : Fin 512, x5 (ix2 (rowC 0 h (by norm_num)) k) = a.wMemInpGate (ix2 h k)
  hM1 : ∀ h k : Fin 512, x5 (ix2 (rowC 512 h (by norm_num)) k) = a.wMemReadGate (ix2 h k)
  hM2 : ∀ h k : Fin 512, x5 (ix2 (rowC 1024 h (by norm_num)) k) = a.wMemWriteGate (ix2 h k)
  hb0 : ∀ h : Fin 512, x6 (ix2 h (0 : Fin 1)) = a.wInp (ix2 h (Fin.last 512)) + a.wRecInp (ix2 h (Fin.last 512))
  hb1 : ∀ h : Fin 512, x7 (ix2 h (0 : Fin 1)) = a.wInpGate (ix2 h (Fin.last 512)) + a.wRecInpGate (ix2 h (Fin.last 512))
  hb2 : ∀ h : Fin 512, x8 (ix2 h (0 : Fin 1)) = a.wReadGate (ix2 h (Fin.last 512)) + a.wRecReadGate (ix2 h (Fin.last 512))
  hb3 : ∀ h : Fin 512, x9 (ix2 h (0 : Fin 1)) = a.wWriteGate (ix2 h (Fin.last 512)) + a.wRecWriteGate (ix2 h (Fin.last 512))

variable {a t x0 x1 x2 x3 x4 x5 x6 x7 x8 x9} (H : Blocks a t x0 x1 x2 x3 x4 x5 x6 x7 x8 x9) (h q : Fin 512)
include H

theorem cand_eq : candB x0 x1 x3 x4 x6 h q = candLogit a h (col t q) := by
  unfold candB candLogit aff mmB
  simp only [H.hx, H.hr, H.hX0, H.hR0, H.hb0]
  exact add_add_add_comm _ _ _ _

theorem inpGate_eq : inpGateB x0 x1 x2 x3 x4 x5 x7 h q = inpGateLogit a h (col t q) := by
  unfold inpGateB inpGateLogit aff lin mmB mmC
  simp only [H.hx, H.hr, H.hc, H.hX1, H.hR1, H.hM0, H.hb1]
  exact regroup_mid _ _ _ _ _

theorem readGate_eq : readGateB x0 x1 x2 x3 x4 x5 x8 h q = readGateLogit a h (col t q) := by
  unfold readGateB readGateLogit aff lin mmB mmC
  simp only [H.hx, H.hr, H.hc, H.hX2, H.hR2, H.hM1, H.hb2]
  exact regroup_end _ _ _ _ _

theorem writeGate_eq : writeGateB x0 x1 x2 x3 x4 x5 x9 h q = writeGateLogit a h (col t q) := by
  unfold writeGateB writeGateLogit aff lin mmB mmC
  simp only [H.hx, H.hr, H.hc, H.hX3, H.hR3, H.hM2, H.hb3]
  exact regroup_mid _ _ _ _ _

/-- The block's new memory at `(h, q)` is the specification's at row `h`, batch column `512·t + q`. -/
theorem mem_eq : memB x0 x1 x2 x3 x4 x5 x6 x7 x8 h q = memAt a h (col t q) := by
  unfold memB memAt
  rw [cand_eq H, inpGate_eq H, readGate_eq H, H.hc]

/-- The block's new output at `(h, q)` is the specification's at row `h`, batch column `512·t + q`. -/
theorem out_eq : outB x0 x1 x2 x3 x4 x5 x6 x7 x8 x9 h q = outAt a h (col t q) := by
  unfold outB outAt
  rw [writeGate_eq H, mem_eq H]

end Cert.KernelIdeal.CellAlgebra

end
-- ==== Proof.CellValue.lean ====
/-
  The idealized kernel's two result arrays after its run, as the specification of the fourteen arguments.

  At point t the moving windows (the three states, the two results) sit at block (0, t) of their arrays — columns
  512·t … 512·t + 511 — and the seven resident windows at block (0, 0), their whole arrays. So the ten input blocks are
  the restrictions the algebra asks for: state columns; rows of the stacked weights, read back through the host's
  stacking and column cuts to the weights themselves; bias sums. Hence what point t writes back through a result window
  is block t of the specification's array, the 64 blocks cover the array (entry (h, b) lies in block b / 512), and the
  array after the run is the specification's.
-/
import proofs.«118199_j54262616818002_2_alg».proof.Proof.KernelIdealFrame
import proofs.«118199_j54262616818002_2_alg».proof.Proof.CellHost
import proofs.«118199_j54262616818002_2_alg».proof.Proof.CellAlgebra
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.CellFrame Cert.KernelIdeal.CellBlock Cert.KernelIdeal.CellHost Cert.KernelIdeal.CellAlgebra
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The fourteen argument arrays on core `c`, as launched. -/
def args (c : Dev nD) : Cert.CellSpec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13)⟩

theorem hz : (![0, 0] : Fin 2 → Nat) = fun _ => 0 := funext fun a => by fin_cases a <;> rfl

/-! ## The index maps over the grid -/

theorem idx_0 : ∀ t : Fin cfg0.N, win0_0.index t (0 : Fin 2) = 0 ∧ win0_0.index t (1 : Fin 2) = t.val :=
  (by decide +kernel : ∀ t : Fin grid0.N, _)
theorem idx_1 : ∀ t : Fin cfg0.N, win0_1.index t (0 : Fin 2) = 0 ∧ win0_1.index t (1 : Fin 2) = t.val :=
  (by decide +kernel : ∀ t : Fin grid0.N, _)
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = t.val :=
  (by decide +kernel : ∀ t : Fin grid0.N, _)
theorem idx_11 : ∀ t : Fin cfg0.N, win0_11.index t (0 : Fin 2) = 0 ∧ win0_11.index t (1 : Fin 2) = t.val :=
  (by decide +kernel : ∀ t : Fin grid0.N, _)

/-! ## The input blocks at a point -/

theorem blk_0 (c : Dev nD) (t : Fin cfg0.N) (k q : Fin 512) :
    iblk m c 0 t (ix2 k q) = m ((c : Thread nD τ).loc main_arg0) (ix2 k (col (Fin.cast N_0 t) q)) := by
  obtain ⟨e0, e1⟩ := idx_0 t
  show V m c main_arg0 (((cfg0.win 0).blk t).view.emb (ix2 k q)) = _
  rw [V_main_arg0]
  refine congrArg (m ((c : Thread nD τ).loc main_arg0)) (funext fun a => Fin.ext ?_)
  match a with
  | ⟨0, _⟩ => show win0_0.index t (0 : Fin 2) * 512 + 1 * k.val = k.val; omega
  | ⟨1, _⟩ => show win0_0.index t (1 : Fin 2) * 512 + 1 * q.val = 512 * t.val + q.val; omega
theorem blk_1 (c : Dev nD) (t : Fin cfg0.N) (k q : Fin 512) :
    iblk m c 1 t (ix2 k q) = m ((c : Thread nD τ).loc main_arg1) (ix2 k (col (Fin.cast N_0 t) q)) := by
  obtain ⟨e0, e1⟩ := idx_1 t
  show V m c main_arg1 (((cfg0.win 1).blk t).view.emb (ix2 k q)) = _
  rw [V_main_arg1]
  refine congrArg (m ((c : Thread nD τ).loc main_arg1)) (funext fun a => Fin.ext ?_)
  match a with
  | ⟨0, _⟩ => show win0_1.index t (0 : Fin 2) * 512 + 1 * k.val = k.val; omega
  | ⟨1, _⟩ => show win0_1.index t (1 : Fin 2) * 512 + 1 * q.val = 512 * t.val + q.val; omega
theorem blk_2 (c : Dev nD) (t : Fin cfg0.N) (k q : Fin 512) :
    iblk m c 2 t (ix2 k q) = m ((c : Thread nD τ).loc main_arg2) (ix2 k (col (Fin.cast N_0 t) q)) := by
  obtain ⟨e0, e1⟩ := idx_2 t
  show V m c main_arg2 (((cfg0.win 2).blk t).view.emb (ix2 k q)) = _
  rw [V_main_arg2]
  refine congrArg (m ((c : Thread nD τ).loc main_arg2)) (funext fun a => Fin.ext ?_)
  match a with
  | ⟨0, _⟩ => show win0_2.index t (0 : Fin 2) * 512 + 1 * k.val = k.val; omega
  | ⟨1, _⟩ => show win0_2.index t (1 : Fin 2) * 512 + 1 * q.val = 512 * t.val + q.val; omega
theorem blk_3 (c : Dev nD) (t : Fin cfg0.N) (g : Fin 2048) (k : Fin 512) :
    iblk m c 3 t (ix2 g k) = V m c main_v21 (ix2 g k) := by
  obtain ⟨e0, e1⟩ := idx_3 t
  show V m c main_v21 (((cfg0.win 3).blk t).view.emb (ix2 g k)) = _
  refine congrArg (V m c main_v21) (funext fun a => Fin.ext ?_)
  match a with
  | ⟨0, _⟩ => show win0_3.index t (0 : Fin 2) * 2048 + 1 * g.val = g.val; omega
  | ⟨1, _⟩ => show win0_3.index t (1 : Fin 2) * 512 + 1 * k.val = k.val; omega
theorem blk_4 (c : Dev nD) (t : Fin cfg0.N) (g : Fin 2048) (k : Fin 512) :
    iblk m c 4 t (ix2 g k) = V m c main_v23 (ix2 g k) := by
  obtain ⟨e0, e1⟩ := idx_4 t
  show V m c main_v23 (((cfg0.win 4).blk t).view.emb (ix2 g k)) = _
  refine congrArg (V m c main_v23) (funext fun a => Fin.ext ?_)
  match a with
  | ⟨0, _⟩ => show win0_4.index t (0 : Fin 2) * 2048 + 1 * g.val = g.val; omega
  | ⟨1, _⟩ => show win0_4.index t (1 : Fin 2) * 512 + 1 * k.val = k.val; omega
theorem blk_5 (c : Dev nD) (t : Fin cfg0.N) (g : Fin 1536) (k : Fin 512) :
    iblk m c 5 t (ix2 g k) = V m c main_v25 (ix2 g k) := by
  obtain ⟨e0, e1⟩ := idx_5 t
  show V m c main_v25 (((cfg0.win 5).blk t).view.emb (ix2 g k)) = _
  refine congrArg (V m c main_v25) (funext fun a => Fin.ext ?_)
  match a with
  | ⟨0, _⟩ => show win0_5.index t (0 : Fin 2) * 1536 + 1 * g.val = g.val; omega
  | ⟨1, _⟩ => show win0_5.index t (1 : Fin 2) * 512 + 1 * k.val = k.val; omega
theorem blk_6 (c : Dev nD) (t : Fin cfg0.N) (g : Fin 512) (k : Fin 1) :
    iblk m c 6 t (ix2 g k) = V m c main_v4 (ix2 g k) := by
  obtain ⟨e0, e1⟩ := idx_6 t
  show V m c main_v4 (((cfg0.win 6).blk t).view.emb (ix2 g k)) = _
  refine congrArg (V m c main_v4) (funext fun a => Fin.ext ?_)
  match a with
  | ⟨0, _⟩ => show win0_6.index t (0 : Fin 2) * 512 + 1 * g.val = g.val; omega
  | ⟨1, _⟩ => show win0_6.index t (1 : Fin 2) * 1 + 1 * k.val = k.val; omega
theorem blk_7 (c : Dev nD) (t : Fin cfg0.N) (g : Fin 512) (k : Fin 1) :
    iblk m c 7 t (ix2 g k) = V m c main_v9 (ix2 g k) := by
  obtain ⟨e0, e1⟩ := idx_7 t
  show V m c main_v9 (((cfg0.win 7).blk t).view.emb (ix2 g k)) = _
  refine congrArg (V m c main_v9) (funext fun a => Fin.ext ?_)
  match a with
  | ⟨0, _⟩ => show win0_7.index t (0 : Fin 2) * 512 + 1 * g.val = g.val; omega
  | ⟨1, _⟩ => show win0_7.index t (1 : Fin 2) * 1 + 1 * k.val = k.val; omega
theorem blk_8 (c : Dev nD) (t : Fin cfg0.N) (g : Fin 512) (k : Fin 1) :
    iblk m c 8 t (ix2 g k) = V m c main_v14 (ix2 g k) := by
  obtain ⟨e0, e1⟩ := idx_8 t
  show V m c main_v14 (((cfg0.win 8).blk t).view.emb (ix2 g k)) = _
  refine congrArg (V m c main_v14) (funext fun a => Fin.ext ?_)
  match a with
  | ⟨0, _⟩ => show win0_8.index t (0 : Fin 2) * 512 + 1 * g.val = g.val; omega
  | ⟨1, _⟩ => show win0_8.index t (1 : Fin 2) * 1 + 1 * k.val = k.val; omega
theorem blk_9 (c : Dev nD) (t : Fin cfg0.N) (g : Fin 512) (k : Fin 1) :
    iblk m c 9 t (ix2 g k) = V m c main_v19 (ix2 g k) := by
  obtain ⟨e0, e1⟩ := idx_9 t
  show V m c main_v19 (((cfg0.win 9).blk t).view.emb (ix2 g k)) = _
  refine congrArg (V m c main_v19) (funext fun a => Fin.ext ?_)
  match a with
  | ⟨0, _⟩ => show win0_9.index t (0 : Fin 2) * 512 + 1 * g.val = g.val; omega
  | ⟨1, _⟩ => show win0_9.index t (1 : Fin 2) * 1 + 1 * k.val = k.val; omega

/-- The sum of two weights' bias columns at entry `h` is the sum of the weights' entries `(h, 512)`. -/
theorem biasSum_apply (X Y : S512x513.Idx → EReal) (h : Fin 512) :
    (addf (F := Ideal) (φ := .f32) (extractStridedSlice S512x1 ![0, 512] X slices_S512x513_S512x1_0_512)
        (extractStridedSlice S512x1 ![0, 512] Y slices_S512x513_S512x1_0_512)) (ix2 h (0 : Fin 1))
      = X (ix2 h (Fin.last 512)) + Y (ix2 h (Fin.last 512)) := by
  show extractStridedSlice S512x1 ![0, 512] X slices_S512x513_S512x1_0_512 (ix2 h (0 : Fin 1))
      + extractStridedSlice S512x1 ![0, 512] Y slices_S512x513_S512x1_0_512 (ix2 h (0 : Fin 1)) = _
  rw [cutB_apply, cutB_apply]

/-- At every point the ten input blocks are the restrictions of the argument arrays the algebra asks for. -/
theorem blocks (c : Dev nD) (t : Fin cfg0.N) :
    Blocks (args m c) (Fin.cast N_0 t) (iblk m c 0 t) (iblk m c 1 t) (iblk m c 2 t) (iblk m c 3 t) (iblk m c 4 t) (iblk m c 5 t) (iblk m c 6 t) (iblk m c 7 t) (iblk m c 8 t) (iblk m c 9 t) where
  hx k q := blk_0 m c t k q
  hr k q := blk_1 m c t k q
  hc k q := blk_2 m c t k q
  hX0 h k := (blk_3 m c t _ k).trans ((congrFun (V_stackX m c) _).trans ((stack4_apply _ _ _ _ concatenates_S512x512_S512x512_S512x512_S512x512_S2048x512_d0 h k).1.trans (cutW_apply _ h k)))
  hX1 h k := (blk_3 m c t _ k).trans ((congrFun (V_stackX m c) _).trans ((stack4_apply _ _ _ _ concatenates_S512x512_S512x512_S512x512_S512x512_S2048x512_d0 h k).2.1.trans (cutW_apply _ h k)))
  hX2 h k := (blk_3 m c t _ k).trans ((congrFun (V_stackX m c) _).trans ((stack4_apply _ _ _ _ concatenates_S512x512_S512x512_S512x512_S512x512_S2048x512_d0 h k).2.2.1.trans (cutW_apply _ h k)))
  hX3 h k := (blk_3 m c t _ k).trans ((congrFun (V_stackX m c) _).trans ((stack4_apply _ _ _ _ concatenates_S512x512_S512x512_S512x512_S512x512_S2048x512_d0 h k).2.2.2.trans (cutW_apply _ h k)))
  hR0 h k := (blk_4 m c t _ k).trans ((congrFun (V_stackR m c) _).trans ((stack4_apply _ _ _ _ concatenates_S512x512_S512x512_S512x512_S512x512_S2048x512_d0 h k).1.trans (cutW_apply _ h k)))
  hR1 h k := (blk_4 m c t _ k).trans ((congrFun (V_stackR m c) _).trans ((stack4_apply _ _ _ _ concatenates_S512x512_S512x512_S512x512_S512x512_S2048x512_d0 h k).2.1.trans (cutW_apply _ h k)))
  hR2 h k := (blk_4 m c t _ k).trans ((congrFun (V_stackR m c) _).trans ((stack4_apply _ _ _ _ concatenates_S512x512_S512x512_S512x512_S512x512_S2048x512_d0 h k).2.2.1.trans (cutW_apply _ h k)))
  hR3 h k := (blk_4 m c t _ k).trans ((congrFun (V_stackR m c) _).trans ((stack4_apply _ _ _ _ concatenates_S512x512_S512x512_S512x512_S512x512_S2048x512_d0 h k).2.2.2.trans (cutW_apply _ h k)))
  hM0 h k := (blk_5 m c t _ k).trans ((congrFun (V_stackM m c) _).trans ((stack3_apply _ _ _ concatenates_S512x512_S512x512_S512x512_S1536x512_d0 h k).1))
  hM1 h k := (blk_5 m c t _ k).trans ((congrFun (V_stackM m c) _).trans ((stack3_apply _ _ _ concatenates_S512x512_S512x512_S512x512_S1536x512_d0 h k).2.1))
  hM2 h k := (blk_5 m c t _ k).trans ((congrFun (V_stackM m c) _).trans ((stack3_apply _ _ _ concatenates_S512x512_S512x512_S512x512_S1536x512_d0 h k).2.2))
  hb0 h := (blk_6 m c t h 0).trans ((congrFun (V_bias0 m c) _).trans (biasSum_apply _ _ h))
  hb1 h := (blk_7 m c t h 0).trans ((congrFun (V_bias1 m c) _).trans (biasSum_apply _ _ h))
  hb2 h := (blk_8 m c t h 0).trans ((congrFun (V_bias2 m c) _).trans (biasSum_apply _ _ h))
  hb3 h := (blk_9 m c t h 0).trans ((congrFun (V_bias3 m c) _).trans (biasSum_apply _ _ h))

/-! ## The stored blocks over plain blocks (a whole-block load reads the block itself) -/

theorem payMem_var (x0 x1 x2 : Vec Ideal S512x512 .f32) (x3 x4 : Vec Ideal S2048x512 .bf16) (x5 : Vec Ideal S1536x512 .bf16) (x6 x7 x8 x9 : Vec Ideal S512x1 .f32) (h q : Fin 512) :
    payMem (F := Ideal) x0 x1 x2 x3 x4 x5 x6 x7 x8 x9 (ix2 h q) = memB x0 x1 x2 x3 x4 x5 x6 x7 x8 h q := by
  unfold payMem
  simp only [View.ld_unit_zero (S := S512x512) hz, View.ld_unit_zero (S := S2048x512) hz, View.ld_unit_zero (S := S1536x512) hz,
    View.ld_unit_zero (S := S512x1) hz]
  exact payMem_apply x0 x1 x2 x3 x4 x5 x6 x7 x8 h q

theorem payOut_var (x0 x1 x2 : Vec Ideal S512x512 .f32) (x3 x4 : Vec Ideal S2048x512 .bf16) (x5 : Vec Ideal S1536x512 .bf16) (x6 x7 x8 x9 : Vec Ideal S512x1 .f32) (h q : Fin 512) :
    payOut (F := Ideal) x0 x1 x2 x3 x4 x5 x6 x7 x8 x9 (ix2 h q) = outB x0 x1 x2 x3 x4 x5 x6 x7 x8 x9 h q := by
  unfold payOut
  simp only [View.ld_unit_zero (S := S512x512) hz, View.ld_unit_zero (S := S2048x512) hz, View.ld_unit_zero (S := S1536x512) hz,
    View.ld_unit_zero (S := S512x1) hz]
  exact payOut_apply x0 x1 x2 x3 x4 x5 x6 x7 x8 x9 h q

/-! ## What each point writes back -/

/-- What point `t` writes back through the new-output window is block `t` of the specification's array. -/
theorem flushed_10 (c : Dev nD) (t : Fin cfg0.N) :
    (dats m 0 c).flushed 10 t = ((cfg0.win 10).blk t).view.read (Elt Ideal) (Cert.CellSpec.out (args m c)) := by
  show (cfg0.win 10).cut (grid0.coords t) ((dats m 0 c).after 10 t) = _
  rw [after_10]
  unfold outO
  rw [View.canon_unit_zero hz]
  funext j
  obtain ⟨h, q, rfl⟩ : ∃ (h q : Fin 512), j = ix2 h q := ⟨j 0, j 1, eq_ix2 j⟩
  obtain ⟨e0, e1⟩ := idx_10 t
  show payOut (iblk m c 0 t) (iblk m c 1 t) (iblk m c 2 t) (iblk m c 3 t) (iblk m c 4 t) (iblk m c 5 t) (iblk m c 6 t) (iblk m c 7 t) (iblk m c 8 t) (iblk m c 9 t) (ix2 h q) = Cert.CellSpec.out (args m c) (((cfg0.win 10).blk t).view.emb (ix2 h q))
  refine (payOut_var (iblk m c 0 t) (iblk m c 1 t) (iblk m c 2 t) (iblk m c 3 t) (iblk m c 4 t) (iblk m c 5 t) (iblk m c 6 t) (iblk m c 7 t) (iblk m c 8 t) (iblk m c 9 t) h q).trans ?_
  refine (out_eq (blocks m c t) h q).trans ?_
  show Cert.CellSpec.outAt (args m c) h (col (Fin.cast N_0 t) q) = Cert.CellSpec.outAt (args m c) _ _
  congr 1
  · exact Fin.ext (by show h.val = win0_10.index t (0 : Fin 2) * 512 + 1 * h.val; omega)
  · exact Fin.ext (by show 512 * t.val + q.val = win0_10.index t (1 : Fin 2) * 512 + 1 * q.val; omega)

/-- What point `t` writes back through the new-memory window is block `t` of the specification's array. -/
theorem flushed_11 (c : Dev nD) (t : Fin cfg0.N) :
    (dats m 0 c).flushed 11 t = ((cfg0.win 11).blk t).view.read (Elt Ideal) (Cert.CellSpec.mem (args m c)) := by
  show (cfg0.win 11).cut (grid0.coords t) ((dats m 0 c).after 11 t) = _
  rw [after_11]
  unfold outM
  rw [View.canon_unit_zero hz]
  funext j
  obtain ⟨h, q, rfl⟩ : ∃ (h q : Fin 512), j = ix2 h q := ⟨j 0, j 1, eq_ix2 j⟩
  obtain ⟨e0, e1⟩ := idx_11 t
  show payMem (iblk m c 0 t) (iblk m c 1 t) (iblk m c 2 t) (iblk m c 3 t) (iblk m c 4 t) (iblk m c 5 t) (iblk m c 6 t) (iblk m c 7 t) (iblk m c 8 t) (iblk m c 9 t) (ix2 h q) = Cert.CellSpec.mem (args m c) (((cfg0.win 11).blk t).view.emb (ix2 h q))
  refine (payMem_var (iblk m c 0 t) (iblk m c 1 t) (iblk m c 2 t) (iblk m c 3 t) (iblk m c 4 t) (iblk m c 5 t) (iblk m c 6 t) (iblk m c 7 t) (iblk m c 8 t) (iblk m c 9 t) h q).trans ?_
  refine (mem_eq (blocks m c t) h q).trans ?_
  show Cert.CellSpec.memAt (args m c) h (col (Fin.cast N_0 t) q) = Cert.CellSpec.memAt (args m c) _ _
  congr 1
  · exact Fin.ext (by show h.val = win0_11.index t (0 : Fin 2) * 512 + 1 * h.val; omega)
  · exact Fin.ext (by show 512 * t.val + q.val = win0_11.index t (1 : Fin 2) * 512 + 1 * q.val; omega)

/-! ## The blocks cover the arrays -/

theorem mem_blk_10 (t : Fin cfg0.N) (i : S512x32768.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v26_0).slice (win0_10.rect t)).set ↔ _
  rw [View.set_slice_whole, Rect.mem_set_unit]
  exact Iff.rfl

/-- Every entry of the array lies in the block of the point that handles its batch column. -/
theorem cover_10 (i : S512x32768.Idx) : ∃ t : Fin cfg0.N, (cfg0.win 10).flush t = true ∧ i ∈ ((cfg0.win 10).blk t).view.set := by
  have hi0 : (i 0).val < 512 := (i 0).isLt
  have hi1 : (i 1).val < 32768 := (i 1).isLt
  let t : Fin cfg0.N := Fin.cast N_0.symm ⟨(i 1).val / 512, by omega⟩
  have ht : t.val = (i 1).val / 512 := rfl
  obtain ⟨e0, e1⟩ := idx_10 t
  refine ⟨t, flush0_10 t, ?_⟩
  rw [mem_blk_10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

theorem mem_blk_11 (t : Fin cfg0.N) (i : S512x32768.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v26_1).slice (win0_11.rect t)).set ↔ _
  rw [View.set_slice_whole, Rect.mem_set_unit]
  exact Iff.rfl

/-- Every entry of the array lies in the block of the point that handles its batch column. -/
theorem cover_11 (i : S512x32768.Idx) : ∃ t : Fin cfg0.N, (cfg0.win 11).flush t = true ∧ i ∈ ((cfg0.win 11).blk t).view.set := by
  have hi0 : (i 0).val < 512 := (i 0).isLt
  have hi1 : (i 1).val < 32768 := (i 1).isLt
  let t : Fin cfg0.N := Fin.cast N_0.symm ⟨(i 1).val / 512, by omega⟩
  have ht : t.val = (i 1).val / 512 := rfl
  obtain ⟨e0, e1⟩ := idx_11 t
  refine ⟨t, flush0_11 t, ?_⟩
  rw [mem_blk_11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-! ## The arrays after the run -/

theorem final_out (c : Dev nD) : (dats m 0 c).arrAt 10 cfg0.N = Cert.CellSpec.out (args m c) :=
  (dats m 0 c).arrAt_eq_of_cover 10 (Cert.CellSpec.out (args m c)) (fun t _ => flushed_10 m c t) cover_10

theorem final_mem (c : Dev nD) : (dats m 0 c).arrAt 11 cfg0.N = Cert.CellSpec.mem (args m c) :=
  (dats m 0 c).arrAt_eq_of_cover 11 (Cert.CellSpec.mem (args m c)) (fun t _ => flushed_11 m c t) cover_11

/-- The run terminates with the new output and the new memory at the specification of the arguments, and the
    arguments unchanged. -/
theorem run : θ_run defs (onTc (τ := τ) (main (F := Ideal))) ⟨m, fun _ => 0, ρ⟩ fun r => ∀ c : Dev nD,
      r.2.mem ((c.tc : Thread nD τ).loc main_v26_0) = Cert.CellSpec.out (args m c)
      ∧ r.2.mem ((c.tc : Thread nD τ).loc main_v26_1) = Cert.CellSpec.mem (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 10).trans (final_out m c), ((h c).1 11).trans (final_mem m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩)
    (run_main m ρ)

end Cert.KernelIdeal.CellValue

end
-- ==== Proof.RefCell.lean ====
/-
  The reference program's run, read as the memory cell of CellSpec.

  The reference is a straight line of 51 host operations. Two of them put a row of ones under the input and under the
  previous output; eleven contract a weight against one of those 513-row arrays or against the previous memory; the
  rest are elementwise. Read at row h and batch column b:

    a weight with a bias column against a state with the row of ones under it is
        (sum over k < 512 of W[h, k] * s[k, b]) + W[h, 512],
    since the last term of the 513-term sum multiplies the bias by one;
    1 / (1 + exp (-z)) is the logistic function of z;

  so the two results are CellSpec's new output and new memory of the fourteen argument arrays, and every weakly fair
  execution of the program ends with them in the two result buffers and the arguments untouched.
-/
import proofs.«118199_j54262616818002_2_alg».proof.Proof.Gen.ReferenceIdeal
import proofs.«118199_j54262616818002_2_alg».proof.Proof.CellSpec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.ReferenceIdeal.RefCell

open Cert.ReferenceIdeal Cert.ReferenceIdeal.Gen Idealize.ShloMosaic Idealize.ShloMosaic.TcCoe Idealize.SL.Sem
  Idealize.ShloMosaic.StableHlo Idealize.ShloMosaic.ValueIdx

/-! ## The arrays -/

/-- A state array (512 rows, 32768 batch columns), a state with one more row, a single row, and the two kinds of weight. -/
abbrev St : Type := FVec Ideal S512x32768 .f32
abbrev St1 : Type := FVec Ideal S513x32768 .f32
abbrev Row : Type := FVec Ideal S1x32768 .f32
abbrev Wb : Type := FVec Ideal S512x513 .f32
abbrev Wm : Type := FVec Ideal S512x512 .f32

/-- The word of the constant is the number one. -/
theorem one_word : Ideal.ofBits .f32 0x3F800000#32 = 1 := IdealRules.sign_bit.ideal_onePat .f32

/-- The row of ones. -/
def onesRow : Row := broadcastInDim S1x32768 ![] bcast_S_S1x32768 (constant (F := Ideal) S_ .f32 0x3F800000#32)
/-- The array of ones. -/
def onesArr : St := broadcastInDim S512x32768 ![] bcast_S_S512x32768 (constant (F := Ideal) S_ .f32 0x3F800000#32)

theorem onesRow_apply (i : S1x32768.Idx) : onesRow i = 1 := one_word
theorem onesArr_apply (i : S512x32768.Idx) : onesArr i = 1 := one_word

/-- A state with the row of ones under it. -/
def cat (s : St) : St1 :=
  concatenate S513x32768 0 [⟨S512x32768, s⟩, ⟨S1x32768, onesRow⟩] concatenates_S512x32768_S1x32768_S513x32768_d0

/-- Above the last row it is the state … -/
theorem cat_lo (s : St) (k : Fin 512) (b : Fin 32768) : cat s (ix2 k.castSucc b) = s (ix2 k b) :=
  concatenate_pair_apply_left (t := S513x32768) (s₁ := S512x32768) (s₂ := S1x32768) 0 s onesRow
    concatenates_S512x32768_S1x32768_S513x32768_d0 (ix2 k.castSucc b) rfl (ix2 k b)
    (fun a => match a with | ⟨0, _⟩ => rfl | ⟨1, _⟩ => rfl)

/-- … and on the last row it is one. -/
theorem cat_hi (s : St) (b : Fin 32768) : cat s (ix2 (Fin.last 512) b) = 1 := by
  have h := concatenate_pair_apply_right (t := S513x32768) (s₁ := S512x32768) (s₂ := S1x32768) 0 s onesRow
    concatenates_S512x32768_S1x32768_S513x32768_d0 (ix2 (Fin.last 512) b) rfl rfl (ix2 (0 : Fin 1) b)
    (fun a => match a with | ⟨0, _⟩ => fun h => absurd rfl h | ⟨1, _⟩ => fun _ => rfl) rfl
  exact h.trans (onesRow_apply _)

/-! ## The two contractions at an index -/

/-- The dimension numbers of a weight with a bias column against a 513-row state, and of a square weight against a state:
    both contract the weight's columns with the state's rows. -/
abbrev DB := dot_S512x513_S513x32768_S512x32768_1_0_0_1_n_n
abbrev DM := dot_S512x512_S512x32768_S512x32768_1_0_0_1_n_n

/-- The coordinates of the two operand indices, for a weight with a bias column: at result index i and contraction
    index q the weight is read at row i 0 and column q, the state at row q and column i 1. -/
theorem lhsB_0 (i : S512x32768.Idx) (q : DB.contr.Idx) : (DB.lhsIdx i q 0).val = (i 0).val := by
  unfold DotDims.lhsIdx
  rw [dif_neg (show ¬(0 : Fin S512x513.rank) ∈ DB.lhsBatch by decide),
    dif_pos (show (0 : Fin S512x513.rank) ∈ DB.lhsNonContracting by decide)]
  rfl
theorem lhsB_1 (i : S512x32768.Idx) (q : DB.contr.Idx) : (DB.lhsIdx i q 1).val = (q ⟨0, by decide⟩).val :=
  DB.lhsIdx_val_of_single rfl i q
theorem rhsB_0 (i : S512x32768.Idx) (q : DB.contr.Idx) : (DB.rhsIdx i q 0).val = (q ⟨0, by decide⟩).val :=
  DB.rhsIdx_val_of_single rfl i q
theorem rhsB_1 (i : S512x32768.Idx) (q : DB.contr.Idx) : (DB.rhsIdx i q 1).val = (i 1).val := by
  unfold DotDims.rhsIdx
  rw [dif_neg (show ¬(1 : Fin S513x32768.rank) ∈ DB.rhsBatch by decide),
    dif_pos (show (1 : Fin S513x32768.rank) ∈ DB.rhsNonContracting by decide)]
  rfl

/-- The same for a square weight. -/
theorem lhsM_0 (i : S512x32768.Idx) (q : DM.contr.Idx) : (DM.lhsIdx i q 0).val = (i 0).val := by
  unfold DotDims.lhsIdx
  rw [dif_neg (show ¬(0 : Fin S512x512.rank) ∈ DM.lhsBatch by decide),
    dif_pos (show (0 : Fin S512x512.rank) ∈ DM.lhsNonContracting by decide)]
  rfl
theorem lhsM_1 (i : S512x32768.Idx) (q : DM.contr.Idx) : (DM.lhsIdx i q 1).val = (q ⟨0, by decide⟩).val :=
  DM.lhsIdx_val_of_single rfl i q
theorem rhsM_0 (i : S512x32768.Idx) (q : DM.contr.Idx) : (DM.rhsIdx i q 0).val = (q ⟨0, by decide⟩).val :=
  DM.rhsIdx_val_of_single rfl i q
theorem rhsM_1 (i : S512x32768.Idx) (q : DM.contr.Idx) : (DM.rhsIdx i q 1).val = (i 1).val := by
  unfold DotDims.rhsIdx
  rw [dif_neg (show ¬(1 : Fin S512x32768.rank) ∈ DM.rhsBatch by decide),
    dif_pos (show (1 : Fin S512x32768.rank) ∈ DM.rhsNonContracting by decide)]
  rfl

/-- At result index (h, b) and contraction coordinate k the weight is read at (h, k) … -/
theorem lidxB (h : Fin 512) (b : Fin 32768) (k : Fin 513) :
    DB.lhsIdx (ix2 h b) ((contrEquiv1 DB 513 rfl rfl).symm k) = ix2 h k :=
  funext fun a => Fin.ext (by
    match a with
    | ⟨0, _⟩ => exact lhsB_0 _ _
    | ⟨1, _⟩ => exact (lhsB_1 _ _).trans (contrEquiv1_symm_val DB 513 rfl rfl k))

/-- … and the state at (k, b). -/
theorem ridxB (h : Fin 512) (b : Fin 32768) (k : Fin 513) :
    DB.rhsIdx (ix2 h b) ((contrEquiv1 DB 513 rfl rfl).symm k) = ix2 k b :=
  funext fun a => Fin.ext (by
    match a with
    | ⟨0, _⟩ => exact (rhsB_0 _ _).trans (contrEquiv1_symm_val DB 513 rfl rfl k)
    | ⟨1, _⟩ => exact rhsB_1 _ _)

/-- The same two reads for a square weight. -/
theorem lidxM (h : Fin 512) (b : Fin 32768) (k : Fin 512) :
    DM.lhsIdx (ix2 h b) ((contrEquiv1 DM 512 rfl rfl).symm k) = ix2 h k :=
  funext fun a => Fin.ext (by
    match a with
    | ⟨0, _⟩ => exact lhsM_0 _ _
    | ⟨1, _⟩ => exact (lhsM_1 _ _).trans (contrEquiv1_symm_val DM 512 rfl rfl k))

theorem ridxM (h : Fin 512) (b : Fin 32768) (k : Fin 512) :
    DM.rhsIdx (ix2 h b) ((contrEquiv1 DM 512 rfl rfl).symm k) = ix2 k b :=
  funext fun a => Fin.ext (by
    match a with
    | ⟨0, _⟩ => exact (rhsM_0 _ _).trans (contrEquiv1_symm_val DM 512 rfl rfl k)
    | ⟨1, _⟩ => exact rhsM_1 _ _)

/-- A weight with a bias column against a state with the row of ones under it. -/
def dotB (W : Wb) (s : St) : St := Host.dotGeneral (F := Ideal) DB none W (cat s)
/-- A square weight against a state. -/
def dotM (W : Wm) (s : St) : St := Host.dotGeneral (F := Ideal) DM none W s

/-- The 513-term sum is the 512-term sum against the state plus the bias: the last term is the bias times one. -/
theorem dotB_apply (W : Wb) (s : St) (h : Fin 512) (b : Fin 32768) :
    dotB W s (ix2 h b) = Cert.CellSpec.aff W s h b := by
  show Host.dotGeneral (F := Ideal) DB none W (cat s) (ix2 h b)
    = (∑ k : Fin 512, W (ix2 h k.castSucc) * s (ix2 k b)) + W (ix2 h (Fin.last 512))
  simp only [Host.dotGeneral]
  rw [Ideal.dotGeneral_apply, ← Equiv.sum_comp (contrEquiv1 DB 513 rfl rfl).symm, Fin.sum_univ_castSucc]
  congr 1
  · refine Finset.sum_congr rfl fun k _ => ?_
    rw [lidxB, ridxB, cat_lo]
  · rw [lidxB, ridxB, cat_hi, mul_one]

/-- The square weight's product is the 512-term sum. -/
theorem dotM_apply (W : Wm) (s : St) (h : Fin 512) (b : Fin 32768) :
    dotM W s (ix2 h b) = Cert.CellSpec.lin W s h b := by
  show Host.dotGeneral (F := Ideal) DM none W s (ix2 h b) = ∑ k : Fin 512, W (ix2 h k) * s (ix2 k b)
  simp only [Host.dotGeneral]
  rw [Ideal.dotGeneral_apply, ← Equiv.sum_comp (contrEquiv1 DM 512 rfl rfl).symm]
  refine Finset.sum_congr rfl fun k _ => ?_
  rw [lidxM, ridxM]

/-! ## The elementwise operations at an index -/

/-- One over one plus the exponential of the negation, elementwise. -/
def sigm (z : St) : St :=
  Host.divf (F := Ideal) onesArr (addf (F := Ideal) onesArr (Host.exp (F := Ideal) (Host.negf (F := Ideal) z)))

/-- It is the logistic function of the element. -/
theorem sigm_apply (z : St) (i : S512x32768.Idx) : sigm z i = Ideal.logistic (z i) := by
  show Ideal.div (onesArr i) (onesArr i + Ideal.exp (-(z i))) = Ideal.logistic (z i)
  rw [onesArr_apply]
  rfl

/-- The hyperbolic tangent, elementwise. -/
theorem tanh_apply (z : St) (i : S512x32768.Idx) : (Host.tanh (F := Ideal) z : St) i = Ideal.tanh (z i) := rfl

/-! ## The two results as arrays, and as the cell -/

/-- The new memory, composed of the operations as the program applies them. -/
def memV (a : Cert.CellSpec.Args) : St :=
  addf (F := Ideal) (mulf (F := Ideal) (Host.tanh (F := Ideal) (addf (F := Ideal) (dotB a.wInp a.x) (dotB a.wRecInp a.r)))
      (sigm (addf (F := Ideal) (addf (F := Ideal) (dotB a.wInpGate a.x) (dotM a.wMemInpGate a.c)) (dotB a.wRecInpGate a.r))))
    (mulf (F := Ideal) (sigm (addf (F := Ideal) (addf (F := Ideal) (dotB a.wReadGate a.x) (dotB a.wRecReadGate a.r)) (dotM a.wMemReadGate a.c))) a.c)

/-- The new output, likewise. -/
def outV (a : Cert.CellSpec.Args) : St :=
  mulf (F := Ideal) (sigm (addf (F := Ideal) (addf (F := Ideal) (dotB a.wWriteGate a.x) (dotM a.wMemWriteGate a.c)) (dotB a.wRecWriteGate a.r))) (memV a)

theorem memV_apply (a : Cert.CellSpec.Args) (h : Fin 512) (b : Fin 32768) :
    memV a (ix2 h b) = Cert.CellSpec.memAt a h b := by
  show memV a (ix2 h b)
    = Ideal.tanh (Cert.CellSpec.aff a.wInp a.x h b + Cert.CellSpec.aff a.wRecInp a.r h b)
        * Ideal.logistic ((Cert.CellSpec.aff a.wInpGate a.x h b + Cert.CellSpec.lin a.wMemInpGate a.c h b)
            + Cert.CellSpec.aff a.wRecInpGate a.r h b)
      + Ideal.logistic ((Cert.CellSpec.aff a.wReadGate a.x h b + Cert.CellSpec.aff a.wRecReadGate a.r h b)
            + Cert.CellSpec.lin a.wMemReadGate a.c h b) * a.c (ix2 h b)
  unfold memV
  simp only [addf_apply, mulf_apply, tanh_apply, sigm_apply, dotB_apply, dotM_apply]

theorem outV_apply (a : Cert.CellSpec.Args) (h : Fin 512) (b : Fin 32768) :
    outV a (ix2 h b) = Cert.CellSpec.outAt a h b := by
  show outV a (ix2 h b)
    = Ideal.logistic ((Cert.CellSpec.aff a.wWriteGate a.x h b + Cert.CellSpec.lin a.wMemWriteGate a.c h b)
          + Cert.CellSpec.aff a.wRecWriteGate a.r h b) * Cert.CellSpec.memAt a h b
  unfold outV
  simp only [addf_apply, mulf_apply, sigm_apply, dotB_apply, dotM_apply, memV_apply]

/-- The composed new memory is the cell's. -/
theorem memV_eq (a : Cert.CellSpec.Args) : memV a = Cert.CellSpec.mem a := by
  funext j
  obtain ⟨h, b, rfl⟩ : ∃ (h : Fin 512) (b : Fin 32768), j = ix2 h b := ⟨j 0, j 1, eq_ix2 j⟩
  exact memV_apply a h b

/-- The composed new output is the cell's. -/
theorem outV_eq (a : Cert.CellSpec.Args) : outV a = Cert.CellSpec.out a := by
  funext j
  obtain ⟨h, b, rfl⟩ : ∃ (h : Fin 512) (b : Fin 32768), j = ix2 h b := ⟨j 0, j 1, eq_ix2 j⟩
  exact outV_apply a h b

/-! ## The program as a list of operations -/

section Ops
variable {F : FTy → Type} [FloatOps F]

/-- The program's 51 operations, in order. -/
abbrev ops : List (HloOp τ sig (Elt F)) :=
  [ nullary main_cst (constant S_ .f32 0x3F800000#32),
    unary main_cst main_v0 (broadcastInDim S1x32768 ![] bcast_S_S1x32768 : (⟨S_, .f32⟩ : BufTy).Contents (Elt F) → (⟨S1x32768, .f32⟩ : BufTy).Contents (Elt F)),
    binary main_arg0 main_v0 main_v1 ((fun a b => concatenate S513x32768 0 [⟨S512x32768, a⟩, ⟨S1x32768, b⟩] concatenates_S512x32768_S1x32768_S513x32768_d0) : (⟨S512x32768, .f32⟩ : BufTy).Contents (Elt F) → (⟨S1x32768, .f32⟩ : BufTy).Contents (Elt F) → (⟨S513x32768, .f32⟩ : BufTy).Contents (Elt F)),
    binary main_arg1 main_v0 main_v2 ((fun a b => concatenate S513x32768 0 [⟨S512x32768, a⟩, ⟨S1x32768, b⟩] concatenates_S512x32768_S1x32768_S513x32768_d0) : (⟨S512x32768, .f32⟩ : BufTy).Contents (Elt F) → (⟨S1x32768, .f32⟩ : BufTy).Contents (Elt F) → (⟨S513x32768, .f32⟩ : BufTy).Contents (Elt F)),
    binary main_arg6 main_v1 main_v3 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_arg7 main_v2 main_v4 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_v3 main_v4 main_v5 (addf : (⟨S512x32768, .f32⟩ : BufTy).Contents (Elt F) → (⟨S512x32768, .f32⟩ : BufTy).Contents (Elt F) → (⟨S512x32768, .f32⟩ : BufTy).Contents (Elt F)),
    unary main_v5 main_v6 (Host.tanh : (⟨S512x32768, .f32⟩ : BufTy).Contents (Elt F) → (⟨S512x32768, .f32⟩ : BufTy).Contents (Elt F)),
    binary main_arg3 main_v1 main_v7 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_arg5 main_arg2 main_v8 ((fun l r => Host.dotGeneral dot_S512x512_S512x32768_S512x32768_1_0_0_1_n_n none l r) : (⟨S512x512, .f32⟩ : BufTy).Contents (Elt F) → (⟨S512x32768, .f32⟩ : BufTy).Contents (Elt F) → (⟨S512x32768, .f32⟩ : BufTy).Contents (Elt F)),
    binary main_v7 main_v8 main_v9 (addf : (⟨S512x32768, .f32⟩ : BufTy).Contents (Elt F) → (⟨S512x32768, .f32⟩ : BufTy).Contents (Elt F) → (⟨S512x32768, .f32⟩ : BufTy).Contents (Elt F)),
    binary main_arg4 main_v2 main_v10 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_v9 main_v10 main_v11 (addf : (⟨S512x32768, .f32⟩ : BufTy).Contents (Elt F) → (⟨S512x32768, .f32⟩ : BufTy).Contents (Elt F) → (⟨S512x32768, .f32⟩ : BufTy).Contents (Elt F)),
    unary main_v11 main_v12 (Host.negf : (⟨S512x32768, .f32⟩ : BufTy).Contents (Elt F) → (⟨S512x32768, .f32⟩ : BufTy).Contents (Elt F)),
    unary main_v12 main_v13 (Host.exp : (⟨S512x32768, .f32⟩ : BufTy).Contents (Elt F) → (⟨S512x32768, .f32⟩ : BufTy).Contents (Elt F)),
    nullary main_cst_0 (constant S_ .f32 0x3F800000#32),
    unary main_cst_0 main_v14 (broadcastInDim S512x32768 ![] bcast_S_S512x32768 : (⟨S_, .f32⟩ : BufTy).Contents (Elt F) → (⟨S512x32768, .f32⟩ : BufTy).Contents (Elt F)),
    binary main_v14 main_v13 main_v15 (addf : (⟨S512x32768, .f32⟩ : BufTy).Contents (Elt F) → (⟨S512x32768, .f32⟩ : BufTy).Contents (Elt F) → (⟨S512x32768, .f32⟩ : BufTy).Contents (Elt F)),
    nullary main_cst_1 (constant S_ .f32 0x3F800000#32),
    unary main_cst_1 main_v16 (broadcastInDim S512x32768 ![] bcast_S_S512x32768 : (⟨S_, .f32⟩ : BufTy).Contents (Elt F) → (⟨S512x32768, .f32⟩ : BufTy).Contents (Elt F)),
    binary main_v16 main_v15 main_v17 (Host.divf : (⟨S512x32768, .f32⟩ : BufTy).Contents (Elt F) → (⟨S512x32768, .f32⟩ : BufTy).Contents (Elt F) → (⟨S512x32768, .f32⟩ : BufTy).Contents (Elt F)),
    binary main_arg8 main_v1 main_v18 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_arg9 main_v2 main_v19 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_v18 main_v19 main_v20 (addf : (⟨S512x32768, .f32⟩ : BufTy).Contents (Elt F) → (⟨S512x32768, .f32⟩ : BufTy).Contents (Elt F) → (⟨S512x32768, .f32⟩ : BufTy).Contents (Elt F)),
    binary main_arg10 main_arg2 main_v21 ((fun l r => Host.dotGeneral dot_S512x512_S512x32768_S512x32768_1_0_0_1_n_n none l r) : (⟨S512x512, .f32⟩ : BufTy).Contents (Elt F) → (⟨S512x32768, .f32⟩ : BufTy).Contents (Elt F) → (⟨S512x32768, .f32⟩ : BufTy).Contents (Elt F)),
    binary main_v20 main_v21 main_v22 (addf : (⟨S512x32768, .f32⟩ : BufTy).Contents (Elt F) → (⟨S512x32768, .f32⟩ : BufTy).Contents (Elt F) → (⟨S512x32768, .f32⟩ : BufTy).Contents (Elt F)),
    unary main_v22 main_v23 (Host.negf : (⟨S512x32768, .f32⟩ : BufTy).Contents (Elt F) → (⟨S512x32768, .f32⟩ : BufTy).Contents (Elt F)),
    unary main_v23 main_v24 (Host.exp : (⟨S512x32768, .f32⟩ : BufTy).Contents (Elt F) → (⟨S512x32768, .f32⟩ : BufTy).Contents (Elt F)),
    nullary main_cst_2 (constant S_ .f32 0x3F800000#32),
    unary main_cst_2 main_v25 (broadcastInDim S512x32768 ![] bcast_S_S512x32768 : (⟨S_, .f32⟩ : BufTy).Contents (Elt F) → (⟨S512x32768, .f32⟩ : BufTy).Contents (Elt F)),
    binary main_v25 main_v24 main_v26 (addf : (⟨S512x32768, .f32⟩ : BufTy).Contents (Elt F) → (⟨S512x32768, .f32⟩ : BufTy).Contents (Elt F) → (⟨S512x32768, .f32⟩ : BufTy).Contents (Elt F)),
    nullary main_cst_3 (constant S_ .f32 0x3F800000#32),
    unary main_cst_3 main_v27 (broadcastInDim S512x32768 ![] bcast_S_S512x32768 : (⟨S_, .f32⟩ : BufTy).Contents (Elt F) → (⟨S512x32768, .f32⟩ : BufTy).Contents (Elt F)),
    binary main_v27 main_v26 main_v28 (Host.divf : (⟨S512x32768, .f32⟩ : BufTy).Contents (Elt F) → (⟨S512x32768, .f32⟩ : BufTy).Contents (Elt F) → (⟨S512x32768, .f32⟩ : BufTy).Contents (Elt F)),
    binary main_arg11 main_v1 main_v29 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_arg13 main_arg2 main_v30 ((fun l r => Host.dotGeneral dot_S512x512_S512x32768_S512x32768_1_0_0_1_n_n none l r) : (⟨S512x512, .f32⟩ : BufTy).Contents (Elt F) → (⟨S512x32768, .f32⟩ : BufTy).Contents (Elt F) → (⟨S512x32768, .f32⟩ : BufTy).Contents (Elt F)),
    binary main_v29 main_v30 main_v31 (addf : (⟨S512x32768, .f32⟩ : BufTy).Contents (Elt F) → (⟨S512x32768, .f32⟩ : BufTy).Contents (Elt F) → (⟨S512x32768, .f32⟩ : BufTy).Contents (Elt F)),
    binary main_arg12 main_v2 main_v32 ((fun l r => Host.dotGeneral dot_S512x513_S513x32768_S512x32768_1_0_0_1_n_n none l r) : (⟨S512x513, .f32⟩ : BufTy).Contents (Elt F) → (⟨S513x32768, .f32⟩ : BufTy).Contents (Elt F) → (⟨S512x32768, .f32⟩ : BufTy).Contents (Elt F)),
    binary main_v31 main_v32 main_v33 (addf : (⟨S512x32768, .f32⟩ : BufTy).Contents (Elt F) → (⟨S512x32768, .f32⟩ : BufTy).Contents (Elt F) → (⟨S512x32768, .f32⟩ : BufTy).Contents (Elt F)),
    unary main_v33 main_v34 (Host.negf : (⟨S512x32768, .f32⟩ : BufTy).Contents (Elt F) → (⟨S512x32768, .f32⟩ : BufTy).Contents (Elt F)),
    unary main_v34 main_v35 (Host.exp : (⟨S512x32768, .f32⟩ : BufTy).Contents (Elt F) → (⟨S512x32768, .f32⟩ : BufTy).Contents (Elt F)),
    nullary main_cst_4 (constant S_ .f32 0x3F800000#32),
    unary main_cst_4 main_v36 (broadcastInDim S512x32768 ![] bcast_S_S512x32768 : (⟨S_, .f32⟩ : BufTy).Contents (Elt F) → (⟨S512x32768, .f32⟩ : BufTy).Contents (Elt F)),
    binary main_v36 main_v35 main_v37 (addf : (⟨S512x32768, .f32⟩ : BufTy).Contents (Elt F) → (⟨S512x32768, .f32⟩ : BufTy).Contents (Elt F) → (⟨S512x32768, .f32⟩ : BufTy).Contents (Elt F)),
    nullary main_cst_5 (constant S_ .f32 0x3F800000#32),
    unary main_cst_5 main_v38 (broadcastInDim S512x32768 ![] bcast_S_S512x32768 : (⟨S_, .f32⟩ : BufTy).Contents (Elt F) → (⟨S512x32768, .f32⟩ : BufTy).Contents (Elt F)),
    binary main_v38 main_v37 main_v39 (Host.divf : (⟨S512x32768, .f32⟩ : BufTy).Contents (Elt F) → (⟨S512x32768, .f32⟩ : BufTy).Contents (Elt F) → (⟨S512x32768, .f32⟩ : BufTy).Contents (Elt F)),
    binary main_v6 main_v17 main_v40 (mulf : (⟨S512x32768, .f32⟩ : BufTy).Contents (Elt F) → (⟨S512x32768, .f32⟩ : BufTy).Contents (Elt F) → (⟨S512x32768, .f32⟩ : BufTy).Contents (Elt F)),
    binary main_v28 main_arg2 main_v41 (mulf : (⟨S512x32768, .f32⟩ : BufTy).Contents (Elt F) → (⟨S512x32768, .f32⟩ : BufTy).Contents (Elt F) → (⟨S512x32768, .f32⟩ : BufTy).Contents (Elt F)),
    binary main_v40 main_v41 main_v42 (addf : (⟨S512x32768, .f32⟩ : BufTy).Contents (Elt F) → (⟨S512x32768, .f32⟩ : BufTy).Contents (Elt F) → (⟨S512x32768, .f32⟩ : BufTy).Contents (Elt F)),
    binary main_v39 main_v42 main_v43 (mulf : (⟨S512x32768, .f32⟩ : BufTy).Contents (Elt F) → (⟨S512x32768, .f32⟩ : BufTy).Contents (Elt F) → (⟨S512x32768, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

end Ops

/-! ## What the two result buffers hold after the operations -/

/-- The fourteen argument arrays a device's buffers hold. -/
def argsV (V : Valuation τ sig (Elt Ideal)) : Cert.CellSpec.Args :=
  ⟨V (Proc.devRef .tc main_arg0),
    V (Proc.devRef .tc main_arg1),
    V (Proc.devRef .tc main_arg2),
    V (Proc.devRef .tc main_arg3),
    V (Proc.devRef .tc main_arg4),
    V (Proc.devRef .tc main_arg5),
    V (Proc.devRef .tc main_arg6),
    V (Proc.devRef .tc main_arg7),
    V (Proc.devRef .tc main_arg8),
    V (Proc.devRef .tc main_arg9),
    V (Proc.devRef .tc main_arg10),
    V (Proc.devRef .tc main_arg11),
    V (Proc.devRef .tc main_arg12),
    V (Proc.devRef .tc main_arg13)⟩

set_option maxRecDepth 8192 in
set_option maxHeartbeats 2000000 in
/-- After the operations the buffer of the new memory holds the composed new memory of the arguments. -/
theorem after_mem (V : Valuation τ sig (Elt Ideal)) :
    after (ops (F := Ideal)) V (Proc.devRef .tc main_v42) = memV (argsV V) := by
  after_results_simp
  repeat (first
    | rw [nullary_result] | rw [unary_result]
    | (rw [nullary_result_ne]; rotate_left; decide)
    | (rw [unary_result_ne]; rotate_left; decide))
  rfl

set_option maxRecDepth 8192 in
set_option maxHeartbeats 2000000 in
/-- After the operations the buffer of the new output holds the composed new output of the arguments. -/
theorem after_out (V : Valuation τ sig (Elt Ideal)) :
    after (ops (F := Ideal)) V (Proc.devRef .tc main_v43) = outV (argsV V) := by
  after_results_simp
  repeat (first
    | rw [nullary_result] | rw [unary_result]
    | (rw [nullary_result_ne]; rotate_left; decide)
    | (rw [unary_result_ne]; rotate_left; decide))
  rfl

/-! ## The run -/

/-- The fourteen argument arrays of device `c` at launch. -/
def args (m : (l : Loc nD τ sig) → Buf (Elt Ideal) l) (c : Dev nD) : Cert.CellSpec.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13)⟩

set_option maxRecDepth 8192 in
set_option maxHeartbeats 2000000 in
/-- On every device, from any memory with zero counters: every weakly fair execution of the reference terminates with
    the cell's new output and new memory of the launch arguments in the two result buffers, and the arguments unchanged. -/
theorem run (m : (l : Loc nD τ sig) → Buf (Elt Ideal) l) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Cert.CellSpec.out (args m c)
      ∧ r.2.mem ((c.tc : Thread nD τ).loc main_v42) = Cert.CellSpec.mem (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v43).trans ((after_out _).trans (outV_eq _)),
      (h c main_v42).trans ((after_mem _).trans (memV_eq _)),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp),
      (h c main_arg12).trans (by after_results_simp),
      (h c main_arg13).trans (by after_results_simp)⟩)
    (run_seq scopedRefs_eq scopedSems_eq defs main (fun _ => ops) main_eq (fun _ => ops_sub) m ρ)

end Cert.ReferenceIdeal.RefCell

end
-- ==== Proof.lean ====
/-
  A memory cell of hidden size 512 over a batch of 32768: the kernel against its reference, over the extended reals.

  Both programs compute, from an input x, a previous output r, a previous memory c and eleven weights,
      new memory = tanh(candidate) · logistic(input gate) + logistic(read gate) · c,
      new output = logistic(write gate) · new memory,
  each logit a sum of products of a weight with a state plus biases (Proof/CellSpec.lean states them index by index).

  The reference appends a row of ones to x and to r and multiplies by the 513-column weights, so that a weight's last
  column enters as one more term of the sum; it spells the logistic function out as 1 / (1 + exp(−z)). The kernel cuts
  each weight's bias column off beforehand, adds the two bias columns of a gate, stacks the weights by rows so that three
  products serve all four gates, and works through the batch 512 columns at a time; it narrows the states and the weights
  before the products, which at the extended reals changes nothing. The two agree because a sum of 513 terms whose last
  factor is one is the sum of the first 512 plus the last weight, because the sums involved are only regrouped
  (addition is commutative and associative on the extended reals, so no finiteness is used), and because the spelt-out
  logistic is the logistic function by definition.

  The kernel programs' frames (Proof/KernelFrame.lean at the word level, Proof/KernelIdealFrame.lean idealized) run the
  body once at a generic grid point and launch it over the 64 points; Proof/CellValue.lean reads the idealized run's
  two result arrays as the specification; Proof/RefCell.lean does the same for the reference's run. The idealization
  rewrote no operation, so there is nothing to preserve.
-/
import proofs.«118199_j54262616818002_2_alg».proof.Defs
import proofs.«118199_j54262616818002_2_alg».proof.Proof.Gen.Kernel
import proofs.«118199_j54262616818002_2_alg».proof.Proof.Gen.KernelIdeal
import proofs.«118199_j54262616818002_2_alg».proof.Proof.Gen.ReferenceIdeal
import proofs.«118199_j54262616818002_2_alg».proof.Proof.Gen.Pre_finite_inputs
import proofs.«118199_j54262616818002_2_alg».proof.Proof.KernelFrame
import proofs.«118199_j54262616818002_2_alg».proof.Proof.KernelIdealFrame
import proofs.«118199_j54262616818002_2_alg».proof.Proof.CellValue
import proofs.«118199_j54262616818002_2_alg».proof.Proof.RefCell
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.CellFrame.frame m ρ

/-- So does the idealized kernel. -/
theorem frame_kernelIdeal : Cert.frame_KernelIdeal := fun m ρ _ => Cert.KernelIdeal.CellFrame.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.RefCell.run m ρ)

/-- From memories agreeing on the fourteen arguments both runs end with the new output and the new memory at the
    specification of those arguments. -/
theorem algebraic : Cert.algebraic_KernelIdeal_ReferenceIdeal := by
  intro m ρ m' ρ' _ hagree
  refine ⟨fun c => Cert.CellSpec.out (Cert.KernelIdeal.CellValue.args m c),
    fun c => Cert.CellSpec.mem (Cert.KernelIdeal.CellValue.args m c), Cert.KernelIdeal.CellValue.run m ρ, ?_⟩
  refine (θ_run Cert.ReferenceIdeal.defs _ _).mono (fun _ h c => ?_) (Cert.ReferenceIdeal.RefCell.run m' ρ')
  have hargs : Cert.ReferenceIdeal.RefCell.args m' c = Cert.KernelIdeal.CellValue.args m c := by
    obtain ⟨h0, h1, h2, h3, h4, h5, h6, h7, h8, h9, h10, h11, h12, h13⟩ := hagree c
    unfold Cert.ReferenceIdeal.RefCell.args Cert.KernelIdeal.CellValue.args
    rw [h0, h1, h2, h3, h4, h5, h6, h7, h8, h9, h10, h11, h12, h13]
  obtain ⟨ho, hm, hk⟩ := h c
  exact ⟨ho.trans (congrArg Cert.CellSpec.out hargs), hm.trans (congrArg Cert.CellSpec.mem hargs), hk⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
